-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S16 .f32) (main_arg16 : FVec F S64x16 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S64x16 .f32 := Host.absf main_arg16
  let main_cst_28 : FVec F S_ .f32 := constant S_ .f32 0x7F800000#32
  let main_v75 : FVec F S64x16 .f32 := broadcastInDim S64x16 ![] bcast_S_S64x16 main_cst_28
  let main_v76 : IVec S64x16 1 := cmpf .olt main_v74 main_v75
  let main_c_29 : IVec S_ 1 := constantI S_ 1 1#1
  let main_v77 : IVec S_ 1 := (fun x v => Host.reduce IntOp.andi x v reducesTo_S64x16_S_d0_1 h_S_) main_v76 main_c_29
  let main_v78 : IVec S_ 1 := andi main_v73 main_v77
  main_v78

def fn_part3 {F : FTy → Type} [FloatOps F] (main_arg12 : FVec F S64 .f32) (main_arg13 : FVec F S64 .f32) (main_arg14 : FVec F S64x16 .f32) (main_arg15 : FVec F S16 .f32) (main_arg16 : FVec F S64x16 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x16 .f32 := Host.absf main_arg14
  let main_cst_24 : FVec F S_ .f32 := constant S_ .f32 0x7F800000#32
  let main_v65 : FVec F S64x16 .f32 := broadcastInDim S64x16 ![] bcast_S_S64x16 main_cst_24
  let main_v66 : IVec S64x16 1 := cmpf .olt main_v64 main_v65
  let main_c_25 : IVec S_ 1 := constantI S_ 1 1#1
  let main_v67 : IVec S_ 1 := (fun x v => Host.reduce IntOp.andi x v reducesTo_S64x16_S_d0_1 h_S_) main_v66 main_c_25
  fn_part4 (F := F) main_arg15 main_arg16 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64x16 .f32) (main_arg15 : FVec F S16 .f32) (main_arg16 : FVec F S64x16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64x16 .f32) (main_arg15 : FVec F S16 .f32) (main_arg16 : FVec F S64x16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64x16 .f32) (main_arg15 : FVec F S16 .f32) (main_arg16 : FVec F S64x16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x32 : Shape := ⟨2, ![10000, 32]⟩
abbrev S10000x64 : Shape := ⟨2, ![10000, 64]⟩
abbrev S1x64 : Shape := ⟨2, ![1, 64]⟩
abbrev S1600000x64 : Shape := ⟨2, ![1600000, 64]⟩
abbrev S10000 : Shape := ⟨1, ![10000]⟩
abbrev S10000x1 : Shape := ⟨2, ![10000, 1]⟩
abbrev S100000x16 : Shape := ⟨2, ![100000, 16]⟩
abbrev S10000x16 : Shape := ⟨2, ![10000, 16]⟩
abbrev S1x16 : Shape := ⟨2, ![1, 16]⟩

abbrev nBuf : Space → Nat
  | .hbm => 83
  | .vmem => 37
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64x16, .f32⟩
  | .hbm, ⟨15, _⟩ => ⟨S16, .f32⟩
  | .hbm, ⟨16, _⟩ => ⟨S64x16, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x16, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S64, .f32⟩
  | .local _ .vmem, ⟨23, _⟩ => ⟨S64x64, .f32⟩
  | .local _ .vmem, ⟨24, _⟩ => ⟨S64, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x16, .f32⟩
  | .local _ .vmem, ⟨33, _⟩ => ⟨S16, .f32⟩
  | .local _ .vmem, ⟨34, _⟩ => ⟨S64x16, .f32⟩
  | .local _ .vmem, ⟨35, _⟩ => ⟨S10000x16, .f32⟩
  | .local _ .vmem, ⟨36, _⟩ => ⟨S10000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  reduces_S10000x64_S10000 : S10000x64.Reduces [1] S10000
  shapeCasts_S10000_S10000x1 : S10000.ShapeCasts S10000x1
  broadcasts_S10000x1_S10000x64 : S10000x1.Broadcasts S10000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .f32 = 32 ∨ (Rect.block (s := S100000x64) S10000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x16.size a ≤ S64x16.size a
  hwx3_2 : ∀ i : grid3.Coords, EltTy.bits .f32 = 32 ∨ (Rect.block (s := S64x16) S64x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16.size a ≤ S16.size a
  hwx3_3 : ∀ i : grid3.Coords, EltTy.bits .f32 = 32 ∨ (Rect.block (s := S16) S16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x16.size a ≤ S64x16.size a
  hwx3_4 : ∀ i : grid3.Coords, EltTy.bits .f32 = 32 ∨ (Rect.block (s := S64x16) S64x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x16.size a ≤ S100000x16.size a
  hwx3_5 : ∀ i : grid3.Coords, EltTy.bits .f32 = 32 ∨ (Rect.block (s := S100000x16) S10000x16.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v38) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v51) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S64x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S64x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S10000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000x64 : Shape := ⟨2, ![100000, 64]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 195
  | .vmem => 0
  | .smem => 0
  | _ => 0

abbrev hbmTy0_0 (i : Nat) : BufTy := match i % 128 with
  | 0 => ⟨S100000x32, .f32⟩
  | 1 => ⟨S2x1600000, .i32⟩
  | 2 => ⟨S32x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64x16, .f32⟩
  | 15 => ⟨S16, .f32⟩
  | 16 => ⟨S64x16, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S1x1600000, .i32⟩
  | 25 => ⟨S1600000, .i32⟩
  | 26 => ⟨S1x1600000, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S_, .f32⟩
  | 38 => ⟨S100000x64, .f32⟩
  | 39 => ⟨S1600000x1, .i32⟩
  | 40 => ⟨S100000x64, .f32⟩
  | 41 => ⟨S_, .f32⟩
  | 42 => ⟨S1600000, .f32⟩
  | 43 => ⟨S_, .f32⟩
  | 44 => ⟨S100000, .f32⟩
  | 45 => ⟨S1600000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S100000x64, .f32⟩
  | 58 => ⟨S100000x64, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x64, .f32⟩
  | 66 => ⟨S100000x64, .f32⟩
  | 67 => ⟨S100000x64, .f32⟩
  | 68 => ⟨S_, .f32⟩
  | 69 => ⟨S100000, .f32⟩
  | 70 => ⟨S100000x1, .f32⟩
  | 71 => ⟨S_, .f32⟩
  | 72 => ⟨S100000x1, .f32⟩
  | 73 => ⟨S100000x1, .f32⟩
  | 74 => ⟨S100000x64, .f32⟩
  | 75 => ⟨S100000x64, .f32⟩
  | 76 => ⟨S_, .f32⟩
  | 77 => ⟨S100000x1, .f32⟩
  | 78 => ⟨S100000x1, .f32⟩
  | 79 => ⟨S100000x1, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S1x1600000, .i32⟩
  | 93 => ⟨S1600000, .i32⟩
  | 94 => ⟨S1x1600000, .i32⟩
  | 95 => ⟨S1600000, .i32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S100000x64, .f32⟩
  | 126 => ⟨S100000x64, .f32⟩
  | 127 => ⟨S_, .f32⟩
  | _ => ⟨S100000x32, .f32⟩

abbrev hbmTy0_1 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x64, .f32⟩
  | 6 => ⟨S100000x64, .f32⟩
  | 7 => ⟨S100000x64, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x64, .f32⟩
  | 15 => ⟨S100000x64, .f32⟩
  | 16 => ⟨S_, .f32⟩
  | 17 => ⟨S100000x1, .f32⟩
  | 18 => ⟨S100000x1, .f32⟩
  | 19 => ⟨S100000x1, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S1x1600000, .i32⟩
  | 33 => ⟨S1600000, .i32⟩
  | 34 => ⟨S1x1600000, .i32⟩
  | 35 => ⟨S1600000, .i32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S_, .f32⟩
  | 50 => ⟨S1600000, .f32⟩
  | 51 => ⟨S_, .f32⟩
  | 52 => ⟨S100000, .f32⟩
  | 53 => ⟨S1600000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x64, .f32⟩
  | 60 => ⟨S100000x64, .f32⟩
  | 61 => ⟨S100000x16, .f32⟩
  | 62 => ⟨S1x16, .f32⟩
  | 63 => ⟨S100000x16, .f32⟩
  | 64 => ⟨S100000x16, .f32⟩
  | 65 => ⟨S100000x16, .f32⟩
  | 66 => ⟨S100000x16, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_cst : Ref sig .tc := ⟨.hbm, 88, rfl⟩
abbrev main_call1_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_9 : Ref sig .tc := ⟨.hbm, 96, rfl⟩
abbrev main_v64 : Ref sig .tc := ⟨.hbm, 97, rfl⟩
abbrev main_v65 : Ref sig .tc := ⟨.hbm, 98, rfl⟩
abbrev main_c_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_cst_13 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_14 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_15 : Ref sig .tc := ⟨.hbm, 127, rfl⟩
abbrev main_v89 : Ref sig .tc := ⟨.hbm, 128, rfl⟩
abbrev main_v90 : Ref sig .tc := ⟨.hbm, 129, rfl⟩
abbrev main_cst_16 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_17 : Ref sig .tc := ⟨.hbm, 136, rfl⟩
abbrev main_v96 : Ref sig .tc := ⟨.hbm, 137, rfl⟩
abbrev main_v97 : Ref sig .tc := ⟨.hbm, 138, rfl⟩
abbrev main_cst_18 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_19 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call2_cst : Ref sig .tc := ⟨.hbm, 156, rfl⟩
abbrev main_call2_v0 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_c_20 : Ref sig .tc := ⟨.hbm, 164, rfl⟩
abbrev main_v119 : Ref sig .tc := ⟨.hbm, 165, rfl⟩
abbrev main_v120 : Ref sig .tc := ⟨.hbm, 166, rfl⟩
abbrev main_c_21 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_22 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_23 : Ref sig .tc := ⟨.hbm, 177, rfl⟩
abbrev main_v129 : Ref sig .tc := ⟨.hbm, 178, rfl⟩
abbrev main_cst_24 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_25 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's whole run with its RESULT named.  @main is eight segments — four stretches of host operations and
  four kernel regions; the buffer contents at each segment boundary are a fold from the launch memory, and the last
  boundary's contents hold, at the result buffer, what the fourth region's write-backs leave.  Every weakly fair
  execution terminates, nothing faults, the result buffer ends at those contents and the seventeen arguments end as
  launched.
-/
import proofs.«177046_j44306882625629_1_alg».proof.Proof.KernelIdealFrameP

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the eight segments from the launch: the last thread state holds every unscoped buffer at the last
    boundary's contents, so the final state's result buffer is read off it, and each argument is read back through the
    fold to its launch contents. -/
theorem run_result : θ_run defs (onTc (τ := τ) (main (F := F))) ⟨m, fun _ => 0, ρ⟩ (fun r => ∀ c : Dev nD,
      r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v52 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.RunValue

end
-- ==== Proof.Spec.lean ====
/-
  The mathematics both programs compute, row by row, on the extended reals.

  A node's feature row is first projected, x ↦ max (x·W + b) 0.  A layer then takes the row `mr` of neighbour
  means and the node's own row `xr`, forms h = (mr·Wl + bl) + xr·Wr, normalises h over its 64 entries
  (mean μ = (∑ h)/64, variance (∑ (h-μ)²)/64, scale 1/sqrt(variance + ε)), applies gain and offset, clips at 0 and adds
  the node's own row back.  The last layer stops at h (with 16 output columns).  Every function below reads ONE row
  of each of its array arguments, so the value of a block of rows is the block of the values.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A rank-2 shape and a rank-1 shape by their extents. -/
abbrev Sh2 (a b : ℕ) : Shape := ⟨2, ![a, b]⟩
abbrev Sh1 (a : ℕ) : Shape := ⟨1, ![a]⟩

/-- The three float words the programs share: 0, 64 and the layer norm's ε. -/
abbrev w0 : EReal := Ideal.ofBits .f32 0x00000000#32
abbrev w64 : EReal := Ideal.ofBits .f32 0x42800000#32
abbrev wEps : EReal := Ideal.ofBits .f32 0x3727C5AC#32

/-- One row of the input projection: max (x·W + b) 0 at column `q`. -/
def projRow (xr : Fin 32 → EReal) (w : (Sh2 32 64).Idx → EReal) (b : (Sh1 64).Idx → EReal) (q : Fin 64) : EReal :=
  max ((∑ k : Fin 32, xr k * w (ix2 k q)) + b (ix1 q)) w0

/-- One row of a layer's linear part: (mr·Wl + bl) + xr·Wr at column `q`, for `c` output columns. -/
def hRow {c : ℕ} (mr xr : Fin 64 → EReal) (wl : (Sh2 64 c).Idx → EReal) (bl : (Sh1 c).Idx → EReal)
    (wr : (Sh2 64 c).Idx → EReal) (q : Fin c) : EReal :=
  ((∑ k : Fin 64, mr k * wl (ix2 k q)) + bl (ix1 q)) + ∑ k : Fin 64, xr k * wr (ix2 k q)

/-- The mean of a row of 64 entries. -/
def muRow (h : Fin 64 → EReal) : EReal := Ideal.div (∑ d : Fin 64, h d) w64

/-- The (biased) variance of a row of 64 entries. -/
def varRow (h : Fin 64 → EReal) : EReal := Ideal.div (∑ d : Fin 64, (h d - muRow h) * (h d - muRow h)) w64

/-- The normalised row with gain `g` and offset `be`, at column `q`. -/
def lnRow (h : Fin 64 → EReal) (g be : (Sh1 64).Idx → EReal) (q : Fin 64) : EReal :=
  ((h q - muRow h) * Ideal.rsqrt (varRow h + wEps)) * g (ix1 q) + be (ix1 q)

/-- One row of a whole layer: normalise the linear part, clip at 0, add the node's own row back. -/
def layerRow (mr xr : Fin 64 → EReal) (wl : (Sh2 64 64).Idx → EReal) (bl : (Sh1 64).Idx → EReal)
    (wr : (Sh2 64 64).Idx → EReal) (g be : (Sh1 64).Idx → EReal) (q : Fin 64) : EReal :=
  max (lnRow (hRow mr xr wl bl wr) g be q) w0 + xr q

/-- Row `p` of an array with `c` columns. -/
def rowOf {n c : ℕ} (X : (Sh2 n c).Idx → EReal) (p : Fin n) : Fin c → EReal := fun k => X (ix2 p k)

/-- The projection of every row of an array of `n` rows. -/
def projArr {n : ℕ} (X : (Sh2 n 32).Idx → EReal) (w : (Sh2 32 64).Idx → EReal) (b : (Sh1 64).Idx → EReal) :
    (Sh2 n 64).Idx → EReal := fun i => projRow (rowOf X (i 0)) w b (i 1)

/-- A layer applied to every row. -/
def layerArr {n : ℕ} (M X : (Sh2 n 64).Idx → EReal) (wl : (Sh2 64 64).Idx → EReal) (bl : (Sh1 64).Idx → EReal)
    (wr : (Sh2 64 64).Idx → EReal) (g be : (Sh1 64).Idx → EReal) : (Sh2 n 64).Idx → EReal :=
  fun i => layerRow (rowOf M (i 0)) (rowOf X (i 0)) wl bl wr g be (i 1)

/-- The last layer's linear part applied to every row. -/
def finArr {n : ℕ} (M X : (Sh2 n 64).Idx → EReal) (wl : (Sh2 64 16).Idx → EReal) (bl : (Sh1 16).Idx → EReal)
    (wr : (Sh2 64 16).Idx → EReal) : (Sh2 n 16).Idx → EReal :=
  fun i => hRow (rowOf M (i 0)) (rowOf X (i 0)) wl bl wr (i 1)

theorem projArr_apply {n : ℕ} (X : (Sh2 n 32).Idx → EReal) (w : (Sh2 32 64).Idx → EReal) (b : (Sh1 64).Idx → EReal)
    (p : Fin n) (q : Fin 64) : projArr X w b (ix2 p q) = projRow (rowOf X p) w b q := rfl

theorem layerArr_apply {n : ℕ} (M X : (Sh2 n 64).Idx → EReal) (wl : (Sh2 64 64).Idx → EReal) (bl : (Sh1 64).Idx → EReal)
    (wr : (Sh2 64 64).Idx → EReal) (g be : (Sh1 64).Idx → EReal) (p : Fin n) (q : Fin 64) :
    layerArr M X wl bl wr g be (ix2 p q) = layerRow (rowOf M p) (rowOf X p) wl bl wr g be q := rfl

theorem finArr_apply {n : ℕ} (M X : (Sh2 n 64).Idx → EReal) (wl : (Sh2 64 16).Idx → EReal) (bl : (Sh1 16).Idx → EReal)
    (wr : (Sh2 64 16).Idx → EReal) (p : Fin n) (q : Fin 16) :
    finArr M X wl bl wr (ix2 p q) = hRow (rowOf M p) (rowOf X p) wl bl wr q := rfl

/-- Dividing by a nonzero extended real is multiplying by its reciprocal: `s · (1 / c) = s / c`, at the infinities too. -/
theorem mul_one_div (s c : EReal) (hc : c ≠ 0) : s * Ideal.div 1 c = Ideal.div s c := by
  unfold Ideal.div
  rw [if_neg hc, if_neg hc, one_mul]

/-- The float word of 1. -/
theorem word_one : Ideal.ofBits .f32 0x3F800000#32 = 1 := by
  simp [Ideal.ofBits, Ideal.ieee, -EReal.coe_mul]; norm_num

/-- A count clipped below at 1 is never 0. -/
theorem max_one_ne_zero (a : EReal) : max a 1 ≠ 0 := by
  have h : (0 : EReal) < max a 1 := lt_of_lt_of_le zero_lt_one (le_max_right a 1)
  exact ne_of_gt h

end Cert.Spec

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«177046_j44306882625629_1_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.KernelPay.lean ====
import proofs.«177046_j44306882625629_1_alg».proof.Proof.Gen.KernelIdeal.Skeleton
import proofs.«177046_j44306882625629_1_alg».proof.Proof.Spec
import proofs.«177046_j44306882625629_1_alg».proof.Proof.LibColumnLayout
import proofs.«177046_j44306882625629_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelPay

open Cert.KernelIdeal Cert.KernelIdeal.Gen Cert.Spec Idealize.ShloMosaic Idealize.ShloMosaic.ValueIdx

/-!
  The kernel's block arithmetic, read one entry at a time on the extended reals.

  Each of the four kernel bodies computes a block of 10000 rows from the blocks it loads. Read at row p and column q, every
  pointwise operation is the operation on the entries, a narrowing of the format is the identity, a matrix product into
  the zero accumulator is the sum over the contracted index, a vector of c entries laid as one row and repeated over the
  rows reads its entry q, and a sum along a row kept as a column and repeated along the row reads that row's sum. Put
  together, entry (p, q) of each body's result is the row function of the interface applied to row p of the loaded blocks.
-/

/-! ## The three matrix products, a row repeated over the rows -/

/-- The 10000×32 by 32×64 product into the zero accumulator, with both operands narrowed first, at (p, q): the sum over
    l of a (p, l) * b (l, q). -/
theorem mm_32_64 (a : Vec Ideal S10000x32 .f32) (b : Vec Ideal S32x64 .f32) (p : Fin 10000) (q : Fin 64) :
    matmul (F := Ideal) dot_S10000x32_S32x64_S10000x64_1_0_0_1_n_n none (truncf .bf16 a bitsLt_bf16_f32)
        (truncf .bf16 b bitsLt_bf16_f32) (constant (F := Ideal) S10000x64 .f32 0x00000000#32) (ix2 p q)
      = ∑ l : Fin 32, a (ix2 p l) * b (ix2 l q) :=
  PlainMatmul.plain_matmul_zero_apply 10000 32 64 none (truncf .bf16 a bitsLt_bf16_f32) (truncf .bf16 b bitsLt_bf16_f32) p q

/-- The 10000×64 by 64×64 product into the zero accumulator, the left operand recast to its own shape and both narrowed
    first, at (p, q): the sum over l of a (p, l) * b (l, q). -/
theorem mm_64_64 (a : Vec Ideal S10000x64 .f32) (b : Vec Ideal S64x64 .f32) (p : Fin 10000) (q : Fin 64) :
    matmul (F := Ideal) dot_S10000x64_S64x64_S10000x64_1_0_0_1_n_n none
        (truncf .bf16 (shapeCast S10000x64 a shapeCasts_S10000x64_S10000x64) bitsLt_bf16_f32)
        (truncf .bf16 b bitsLt_bf16_f32) (constant (F := Ideal) S10000x64 .f32 0x00000000#32) (ix2 p q)
      = ∑ l : Fin 64, a (ix2 p l) * b (ix2 l q) := by
  rw [shapeCast_self a]
  exact PlainMatmul.plain_matmul_zero_apply 10000 64 64 none (truncf .bf16 a bitsLt_bf16_f32) (truncf .bf16 b bitsLt_bf16_f32) p q

/-- The 10000×64 by 64×16 product, read the same way. -/
theorem mm_64_16 (a : Vec Ideal S10000x64 .f32) (b : Vec Ideal S64x16 .f32) (p : Fin 10000) (q : Fin 16) :
    matmul (F := Ideal) dot_S10000x64_S64x16_S10000x16_1_0_0_1_n_n none
        (truncf .bf16 (shapeCast S10000x64 a shapeCasts_S10000x64_S10000x64) bitsLt_bf16_f32)
        (truncf .bf16 b bitsLt_bf16_f32) (constant (F := Ideal) S10000x16 .f32 0x00000000#32) (ix2 p q)
      = ∑ l : Fin 64, a (ix2 p l) * b (ix2 l q) := by
  rw [shapeCast_self a]
  exact PlainMatmul.plain_matmul_zero_apply 10000 64 16 none (truncf .bf16 a bitsLt_bf16_f32) (truncf .bf16 b bitsLt_bf16_f32) p q

/-- A vector of c entries laid as one row and repeated over a rows reads, at (p, q), its entry q. -/
theorem row_apply {a c : ℕ} (v : (⟨1, ![c]⟩ : Shape).Idx → EReal) (h1 : (⟨1, ![c]⟩ : Shape).ShapeCasts ⟨2, ![1, c]⟩)
    (h2 : (⟨2, ![1, c]⟩ : Shape).Broadcasts ⟨2, ![a, c]⟩) (p : Fin a) (q : Fin c) :
    broadcastTo ⟨2, ![a, c]⟩ (shapeCast ⟨2, ![1, c]⟩ v h1) h2 (ix2 p q) = v (ix1 q) :=
  (broadcastTo_1b_ab_apply _ h2 p q).trans (shapeCast_a_1a_apply v h1 0 q)

/-! ## The projection -/

/-- Entry (p, q) of the projection body: max (x·W + b) 0 on row p. -/
theorem proj_pay (v0 : Vec Ideal S10000x32 .f32) (v2 : Vec Ideal S32x64 .f32) (v5 : Vec Ideal S64 .f32) (p : Fin 10000)
    (q : Fin 64) : k0_pay1 (F := Ideal) v0 v2 v5 (ix2 p q) = projRow (rowOf v0 p) v2 v5 q := by
  unfold k0_pay1
  refine (maximumf_apply _ _ _).trans (congrArg (fun t => max t w0) ?_)
  exact (addf_apply _ _ _).trans (congrArg₂ (· + ·) (mm_32_64 v0 v2 p q) (row_apply v5 _ _ p q))

/-! ## The last layer -/

/-- Entry (p, q) of the last layer's body: (m·Wl + bl) + x·Wr on row p. -/
theorem fin_pay (x0 x1 : Vec Ideal S10000x64 .f32) (x2 : Vec Ideal S64x16 .f32) (x3 : Vec Ideal S16 .f32)
    (x4 : Vec Ideal S64x16 .f32) (p : Fin 10000) (q : Fin 16) :
    k3_pay1 (F := Ideal) x0 x1 x2 x4 x3 (ix2 p q) = hRow (rowOf x0 p) (rowOf x1 p) x2 x3 x4 q := by
  unfold k3_pay1
  refine (addf_apply _ _ _).trans (congrArg₂ (· + ·) ?_ (mm_64_16 x1 x4 p q))
  exact (addf_apply _ _ _).trans (congrArg₂ (· + ·) (mm_64_16 x0 x2 p q) (row_apply x3 _ _ p q))

/-! ## A layer: its linear part, the row statistics, the normalised block -/

/-- The linear part of a layer as a block of rows: (M·Wl + bl) + X·Wr. -/
def linBlk (m x : Vec Ideal S10000x64 .f32) (wl wr : Vec Ideal S64x64 .f32) (bl : Vec Ideal S64 .f32) :
    FVec Ideal S10000x64 .f32 :=
  addf
    (addf
      (matmul (F := Ideal) dot_S10000x64_S64x64_S10000x64_1_0_0_1_n_n none
        (truncf .bf16 (shapeCast S10000x64 m shapeCasts_S10000x64_S10000x64) bitsLt_bf16_f32)
        (truncf .bf16 wl bitsLt_bf16_f32) (constant (F := Ideal) S10000x64 .f32 0x00000000#32))
      (broadcastTo S10000x64 (shapeCast S1x64 bl shapeCasts_S64_S1x64) broadcasts_S1x64_S10000x64))
    (matmul (F := Ideal) dot_S10000x64_S64x64_S10000x64_1_0_0_1_n_n none
      (truncf .bf16 (shapeCast S10000x64 x shapeCasts_S10000x64_S10000x64) bitsLt_bf16_f32)
      (truncf .bf16 wr bitsLt_bf16_f32) (constant (F := Ideal) S10000x64 .f32 0x00000000#32))

/-- The mean of each row of a block, kept as a column: the row's sum over 64. -/
def muCol (h : FVec Ideal S10000x64 .f32) : FVec Ideal S10000x1 .f32 :=
  divf
    (shapeCast S10000x1 (multiReduction (F := Ideal) .add [1] S10000 h 0x00000000#32 reduces_S10000x64_S10000 (.inl rfl) rfl)
      shapeCasts_S10000_S10000x1)
    (broadcast S10000x1 (Scalar.ofBits (F := Ideal) .f32 0x42800000#32))

/-- Each entry of a block less its row's mean. -/
def devBlk (h : FVec Ideal S10000x64 .f32) : FVec Ideal S10000x64 .f32 :=
  subf h (broadcastTo S10000x64 (muCol h) broadcasts_S10000x1_S10000x64)

/-- The variance of each row of a block, kept as a column: the sum of the squared deviations over 64. -/
def varCol (h : FVec Ideal S10000x64 .f32) : FVec Ideal S10000x1 .f32 :=
  divf
    (shapeCast S10000x1
      (multiReduction (F := Ideal) .add [1] S10000 (mulf (devBlk h) (devBlk h)) 0x00000000#32 reduces_S10000x64_S10000 (.inl rfl) rfl)
      shapeCasts_S10000_S10000x1)
    (broadcast S10000x1 (Scalar.ofBits (F := Ideal) .f32 0x42800000#32))

/-- The block normalised row by row and scaled by the gain. -/
def normBlk (h : FVec Ideal S10000x64 .f32) (g : Vec Ideal S64 .f32) : FVec Ideal S10000x64 .f32 :=
  mulf
    (mulf (devBlk h)
      (broadcastTo S10000x64 (rsqrt (addf (varCol h) (broadcast S10000x1 (Scalar.ofBits (F := Ideal) .f32 0x3727C5AC#32))))
        broadcasts_S10000x1_S10000x64))
    (broadcastTo S10000x64 (shapeCast S1x64 g shapeCasts_S64_S1x64) broadcasts_S1x64_S10000x64)

/-- Entry (p, d) of the linear part: the interface's linear row function on row p. -/
theorem linBlk_apply (m x : Vec Ideal S10000x64 .f32) (wl wr : Vec Ideal S64x64 .f32) (bl : Vec Ideal S64 .f32)
    (p : Fin 10000) (d : Fin 64) : linBlk m x wl wr bl (ix2 p d) = hRow (rowOf m p) (rowOf x p) wl bl wr d := by
  unfold linBlk
  refine (addf_apply _ _ _).trans (congrArg₂ (· + ·) ?_ (mm_64_64 x wr p d))
  exact (addf_apply _ _ _).trans (congrArg₂ (· + ·) (mm_64_64 m wl p d) (row_apply bl _ _ p d))

/-- The column of row means reads, at row p, the mean of row p. -/
theorem muCol_apply (h : FVec Ideal S10000x64 .f32) (p : Fin 10000) (u : Fin 1) :
    muCol h (ix2 p u) = muRow (rowOf h p) := by
  unfold muCol muRow
  refine (divf_apply _ _ _).trans (congrArg₂ Ideal.div ?_ rfl)
  exact (LibColumnLayout.shapeCast_a_a1_apply _ _ p u).trans
    (LibColumnLayout.multiReduction_add_rows_apply h _ _ _ _ p)

/-- An entry of the deviations: the entry less its row's mean. -/
theorem devBlk_apply (h : FVec Ideal S10000x64 .f32) (p : Fin 10000) (q : Fin 64) :
    devBlk h (ix2 p q) = h (ix2 p q) - muRow (rowOf h p) := by
  unfold devBlk
  refine (subf_apply _ _ _).trans (congrArg (fun t => h (ix2 p q) - t) ?_)
  exact (LibColumnLayout.broadcastTo_a1_ab_apply _ _ p q).trans (muCol_apply h p 0)

/-- The column of row variances reads, at row p, the variance of row p. -/
theorem varCol_apply (h : FVec Ideal S10000x64 .f32) (p : Fin 10000) (u : Fin 1) :
    varCol h (ix2 p u) = varRow (rowOf h p) := by
  unfold varCol varRow
  refine (divf_apply _ _ _).trans (congrArg₂ Ideal.div ?_ rfl)
  refine (LibColumnLayout.shapeCast_a_a1_apply _ _ p u).trans
    ((LibColumnLayout.multiReduction_add_rows_apply _ _ _ _ _ p).trans (Finset.sum_congr rfl fun d _ => ?_))
  exact (mulf_apply _ _ _).trans (congrArg₂ (· * ·) (devBlk_apply h p d) (devBlk_apply h p d))

/-- An entry of the normalised block: the deviation times the reciprocal root of the row's variance plus ε, times the gain. -/
theorem normBlk_apply (h : FVec Ideal S10000x64 .f32) (g : Vec Ideal S64 .f32) (p : Fin 10000) (q : Fin 64) :
    normBlk h g (ix2 p q)
      = ((h (ix2 p q) - muRow (rowOf h p)) * Ideal.rsqrt (varRow (rowOf h p) + wEps)) * g (ix1 q) := by
  unfold normBlk
  refine (mulf_apply _ _ _).trans (congrArg₂ (· * ·) ?_ (row_apply g _ _ p q))
  refine (mulf_apply _ _ _).trans (congrArg₂ (· * ·) (devBlk_apply h p q) ?_)
  refine (LibColumnLayout.broadcastTo_a1_ab_apply _ _ p q).trans ?_
  exact congrArg (fun t => Ideal.rsqrt (t + wEps)) (varCol_apply h p 0)

/-- The offset, the clip at 0 and the node's own row added back, at (p, q). -/
theorem tail_apply (n : FVec Ideal S10000x64 .f32) (x : Vec Ideal S10000x64 .f32) (be : Vec Ideal S64 .f32) (p : Fin 10000)
    (q : Fin 64) :
    addf
        (maximumf (addf n (broadcastTo S10000x64 (shapeCast S1x64 be shapeCasts_S64_S1x64) broadcasts_S1x64_S10000x64))
          (broadcast S10000x64 (Scalar.ofBits (F := Ideal) .f32 0x00000000#32)))
        (shapeCast S10000x64 x shapeCasts_S10000x64_S10000x64) (ix2 p q)
      = max (n (ix2 p q) + be (ix1 q)) w0 + x (ix2 p q) := by
  refine (addf_apply _ _ _).trans (congrArg₂ (· + ·) ?_ (congrFun (shapeCast_self x _) _))
  refine (maximumf_apply _ _ _).trans (congrArg (fun t => max t w0) ?_)
  exact (addf_apply _ _ _).trans (congrArg (fun t => n (ix2 p q) + t) (row_apply be _ _ p q))

/-- Entry (p, q) of a whole layer written over the blocks above: the interface's layer row function on row p. -/
theorem layer_core (x0 x1 : Vec Ideal S10000x64 .f32) (x2 : Vec Ideal S64x64 .f32) (x3 : Vec Ideal S64 .f32)
    (x4 : Vec Ideal S64x64 .f32) (x5 x6 : Vec Ideal S64 .f32) (p : Fin 10000) (q : Fin 64) :
    addf
        (maximumf
          (addf (normBlk (linBlk x0 x1 x2 x4 x3) x5)
            (broadcastTo S10000x64 (shapeCast S1x64 x6 shapeCasts_S64_S1x64) broadcasts_S1x64_S10000x64))
          (broadcast S10000x64 (Scalar.ofBits (F := Ideal) .f32 0x00000000#32)))
        (shapeCast S10000x64 x1 shapeCasts_S10000x64_S10000x64) (ix2 p q)
      = layerRow (rowOf x0 p) (rowOf x1 p) x2 x3 x4 x5 x6 q := by
  have hrow : rowOf (linBlk x0 x1 x2 x4 x3) p = hRow (rowOf x0 p) (rowOf x1 p) x2 x3 x4 :=
    funext fun d => linBlk_apply x0 x1 x2 x4 x3 p d
  refine (tail_apply _ x1 x6 p q).trans ?_
  rw [normBlk_apply, hrow, linBlk_apply]
  rfl

/-! ## The two layer kernels -/

/-- The first layer kernel's normalised block is the one above, of its linear part. -/
theorem k1_pay3_eq (x0 x1 : Vec Ideal S10000x64 .f32) (x2 x4 : Vec Ideal S64x64 .f32) (x3 x5 : Vec Ideal S64 .f32) :
    k1_pay3 (F := Ideal) x0 x1 x2 x4 x3 x5 = normBlk (linBlk x0 x1 x2 x4 x3) x5 := rfl

/-- The second layer kernel's, likewise. -/
theorem k2_pay3_eq (x0 x1 : Vec Ideal S10000x64 .f32) (x2 x4 : Vec Ideal S64x64 .f32) (x3 x5 : Vec Ideal S64 .f32) :
    k2_pay3 (F := Ideal) x0 x1 x2 x4 x3 x5 = normBlk (linBlk x0 x1 x2 x4 x3) x5 := rfl

/-- Entry (p, q) of the first layer kernel's body: the layer on row p. -/
theorem layer_pay1 (x0 x1 : Vec Ideal S10000x64 .f32) (x2 : Vec Ideal S64x64 .f32) (x3 : Vec Ideal S64 .f32)
    (x4 : Vec Ideal S64x64 .f32) (x5 x6 : Vec Ideal S64 .f32) (p : Fin 10000) (q : Fin 64) :
    k1_pay1 (F := Ideal) (k1_pay2 x1) (k1_pay3 x0 x1 x2 x4 x3 x5) (k1_pay4 x6) (ix2 p q)
      = layerRow (rowOf x0 p) (rowOf x1 p) x2 x3 x4 x5 x6 q := by
  rw [k1_pay3_eq]
  exact layer_core x0 x1 x2 x3 x4 x5 x6 p q

/-- Entry (p, q) of the second layer kernel's body: the layer on row p. -/
theorem layer_pay2 (x0 x1 : Vec Ideal S10000x64 .f32) (x2 : Vec Ideal S64x64 .f32) (x3 : Vec Ideal S64 .f32)
    (x4 : Vec Ideal S64x64 .f32) (x5 x6 : Vec Ideal S64 .f32) (p : Fin 10000) (q : Fin 64) :
    k2_pay1 (F := Ideal) (k2_pay2 x1) (k2_pay3 x0 x1 x2 x4 x3 x5) (k2_pay4 x6) (ix2 p q)
      = layerRow (rowOf x0 p) (rowOf x1 p) x2 x3 x4 x5 x6 q := by
  rw [k2_pay3_eq]
  exact layer_core x0 x1 x2 x3 x4 x5 x6 p q

end Cert.KernelPay

end
-- ==== Proof.BlockValue.lean ====
/-
  From blocks to whole arrays.  Each of the four kernels runs over ten grid points; at point `t` it reads rows
  `t·10000 … t·10000 + 9999` of its row-blocked operands and the whole of each weight and bias, and writes the same rows of
  its output.  Since the body's arithmetic at a row reads only that row of each row-blocked operand, what point `t`
  writes back is block `t` of ONE function of the whole arrays, and the ten blocks tile the output: after the region the
  output array is that function of the arrays as the region found them.
-/
import proofs.«177046_j44306882625629_1_alg».proof.Proof.KernelIdealFrameP
import proofs.«177046_j44306882625629_1_alg».proof.Proof.Spec
import proofs.«177046_j44306882625629_1_alg».proof.Proof.KernelPay
import Idealize.ShloMosaic.Lib.Pipeline.Value
import Idealize.ShloMosaic.Lib.ValueIdx

set_option maxRecDepth 16384

noncomputable section

namespace Cert.KernelIdeal.BlockValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- The buffer contents a region is entered with: every statement below holds for any such contents.
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: the input projection -/

/-- The index maps over the ten grid points: a window of ten-thousand-row blocks sits at block row `t`, column block 0;
    a weight or bias window is the whole array at every point. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- Block `t` of the row-blocked array `main_arg0` reads, at local row `p`, the array's row `t·10000 + p`. -/
theorem blk0_0 (c : Dev nD) (t : Fin cfg0.N) (p : Fin 10000) (k : Fin 32) :
    iblk0 V c 0 t (ix2 p k) = V c main_arg0 (ix2 ⟨t.val * 10000 + p.val, by have ht : t.val < 10 := t.isLt; have hp := p.isLt; omega⟩ k) := by
  have ht : t.val < 10 := t.isLt
  have hp := p.isLt
  have e : ((cfg0.win 0).blk t).view.emb (ix2 p k) = ix2 ⟨t.val * 10000 + p.val, by omega⟩ k := by
    obtain ⟨e0, e1, -, -, -, -, -⟩ := idx0 t
    funext a; apply Fin.ext
    match a with
    | ⟨0, _⟩ => show win0_0.index t (0 : Fin 2) * 10000 + 1 * p.val = t.val * 10000 + p.val; omega
    | ⟨1, _⟩ => show win0_0.index t (1 : Fin 2) * 32 + 1 * k.val = k.val; omega
  show V c main_arg0 (((cfg0.win 0).blk t).view.emb (ix2 p k)) = _
  rw [e]

/-- The window over `main_arg2` is the whole array at every point. -/
theorem blk0_1 (c : Dev nD) (t : Fin cfg0.N) : iblk0 V c 1 t = V c main_arg2 := by
  funext y
  have e : ((cfg0.win 1).blk t).view.emb y = y := by
    obtain ⟨-, -, e0, e1, -, -, -⟩ := idx0 t
    funext a; apply Fin.ext
    match a with
    | ⟨0, _⟩ => show win0_1.index t (0 : Fin 2) * 32 + 1 * (y 0).val = (y 0).val; omega
    | ⟨1, _⟩ => show win0_1.index t (1 : Fin 2) * 64 + 1 * (y 1).val = (y 1).val; omega
  show V c main_arg2 (((cfg0.win 1).blk t).view.emb y) = _
  rw [e]

/-- The window over `main_arg3` is the whole array at every point. -/
theorem blk0_2 (c : Dev nD) (t : Fin cfg0.N) : iblk0 V c 2 t = V c main_arg3 := by
  funext y
  have e : ((cfg0.win 2).blk t).view.emb y = y := by
    obtain ⟨-, -, -, -, e0, -, -⟩ := idx0 t
    funext a; apply Fin.ext
    match a with
    | ⟨0, _⟩ => show win0_2.index t (0 : Fin 1) * 64 + 1 * (y 0).val = (y 0).val; omega
  show V c main_arg3 (((cfg0.win 2).blk t).view.emb y) = _
  rw [e]

/-- What point `t` writes back is block `t` of the whole-array function: the body's arithmetic reads one row of each
    row-blocked operand, and local row `p` of block `t` is row `t·10000 + p` of the array. -/
theorem flushed0 (c : Dev nD) (t : Fin cfg0.N) :
    (dat0 V c).flushed 3 t = ((cfg0.win 3).blk t).view.read (Elt Ideal) (projArr (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S10000x32) hz2, View.ld_unit_zero (S := S32x64) hz2, View.ld_unit_zero (S := S64) hz1]
  rw [blk0_1 V c t, blk0_2 V c t]
  have ht : t.val < 10 := t.isLt
  funext j
  obtain ⟨p, q, rfl⟩ : ∃ (p : Fin 10000) (q : Fin 64), j = ix2 p q := ⟨j 0, j 1, eq_ix2 j⟩
  have hp := p.isLt
  have eo : ((cfg0.win 3).blk t).view.emb (ix2 p q) = ix2 ⟨t.val * 10000 + p.val, by omega⟩ q := by
    obtain ⟨-, -, -, -, -, e0, e1⟩ := idx0 t
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay1 (iblk0 V c 0 t) (V c main_arg2) (V c main_arg3) (ix2 p q)
      = (projArr (V c main_arg0) (V c main_arg2) (V c main_arg3)) (((cfg0.win 3).blk t).view.emb (ix2 p q))
  rw [eo, projArr_apply]
  refine (KernelPay.proj_pay (iblk0 V c 0 t) (V c main_arg2) (V c main_arg3) p q).trans ?_
  have hr0 : rowOf (iblk0 V c 0 t) p = rowOf (V c main_arg0) ⟨t.val * 10000 + p.val, by omega⟩ := funext fun k => blk0_0 V c t p k
  rw [hr0]

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v13).slice (win0_3.rect t)).set ↔ _
  rw [View.set_slice_whole, Rect.mem_set_unit]
  exact Iff.rfl

/-- The ten blocks tile the output array: row `i 0` lies in block `(i 0) / 10000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 10000 < 10 := by omega
  obtain ⟨t, ht⟩ : ∃ t : Fin cfg0.N, t.val = (i 0).val / 10000 := ⟨⟨(i 0).val / 10000, hlt⟩, rfl⟩
  refine ⟨t, flush0_3 t, ?_⟩
  rw [mem_blk0]
  obtain ⟨-, -, -, -, -, e0, e1⟩ := idx0 t
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the region the output array holds the whole-array function of the arrays the region was entered with. -/
theorem final0 (c : Dev nD) : (dat0 V c).arrAt 3 cfg0.N = projArr (V c main_arg0) (V c main_arg2) (V c main_arg3) :=
  (dat0 V c).arrAt_eq_of_cover 3 (projArr (V c main_arg0) (V c main_arg2) (V c main_arg3)) (fun t _ => flushed0 V c t) (cover0)

/-! ## Region 1: the first layer -/

/-- The index maps over the ten grid points: a window of ten-thousand-row blocks sits at block row `t`, column block 0;
    a weight or bias window is the whole array at every point. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 1) = 0
    ∧ win1_7.index t (0 : Fin 2) = t.val
    ∧ win1_7.index t (1 : Fin 2) = 0 :=
  (by decide +kernel : ∀ t : Fin grid1.N, _)

/-- Block `t` of the row-blocked array `main_v25` reads, at local row `p`, the array's row `t·10000 + p`. -/
theorem blk1_0 (c : Dev nD) (t : Fin cfg1.N) (p : Fin 10000) (k : Fin 64) :
    iblk1 V c 0 t (ix2 p k) = V c main_v25 (ix2 ⟨t.val * 10000 + p.val, by have ht : t.val < 10 := t.isLt; have hp := p.isLt; omega⟩ k) := by
  have ht : t.val < 10 := t.isLt
  have hp := p.isLt
  have e : ((cfg1.win 0).blk t).view.emb (ix2 p k) = ix2 ⟨t.val * 10000 + p.val, by omega⟩ k := by
    obtain ⟨e0, e1, -, -, -, -, -, -, -, -, -, -, -⟩ := idx1 t
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  show V c main_v25 (((cfg1.win 0).blk t).view.emb (ix2 p k)) = _
  rw [e]

/-- Block `t` of the row-blocked array `main_v13` reads, at local row `p`, the array's row `t·10000 + p`. -/
theorem blk1_1 (c : Dev nD) (t : Fin cfg1.N) (p : Fin 10000) (k : Fin 64) :
    iblk1 V c 1 t (ix2 p k) = V c main_v13 (ix2 ⟨t.val * 10000 + p.val, by have ht : t.val < 10 := t.isLt; have hp := p.isLt; omega⟩ k) := by
  have ht : t.val < 10 := t.isLt
  have hp := p.isLt
  have e : ((cfg1.win 1).blk t).view.emb (ix2 p k) = ix2 ⟨t.val * 10000 + p.val, by omega⟩ k := by
    obtain ⟨-, -, e0, e1, -, -, -, -, -, -, -, -, -⟩ := idx1 t
    funext a; apply Fin.ext
    match a with
    | ⟨0, _⟩ => show win1_1.index t (0 : Fin 2) * 10000 + 1 * p.val = t.val * 10000 + p.val; omega
    | ⟨1, _⟩ => show win1_1.index t (1 : Fin 2) * 64 + 1 * k.val = k.val; omega
  show V c main_v13 (((cfg1.win 1).blk t).view.emb (ix2 p k)) = _
  rw [e]

/-- The window over `main_arg4` is the whole array at every point. -/
theorem blk1_2 (c : Dev nD) (t : Fin cfg1.N) : iblk1 V c 2 t = V c main_arg4 := by
  funext y
  have e : ((cfg1.win 2).blk t).view.emb y = y := by
    obtain ⟨-, -, -, -, e0, e1, -, -, -, -, -, -, -⟩ := idx1 t
    funext a; apply Fin.ext
    match a with
    | ⟨0, _⟩ => show win1_2.index t (0 : Fin 2) * 64 + 1 * (y 0).val = (y 0).val; omega
    | ⟨1, _⟩ => show win1_2.index t (1 : Fin 2) * 64 + 1 * (y 1).val = (y 1).val; omega
  show V c main_arg4 (((cfg1.win 2).blk t).view.emb y) = _
  rw [e]

/-- The window over `main_arg5` is the whole array at every point. -/
theorem blk1_3 (c : Dev nD) (t : Fin cfg1.N) : iblk1 V c 3 t = V c main_arg5 := by
  funext y
  have e : ((cfg1.win 3).blk t).view.emb y = y := by
    obtain ⟨-, -, -, -, -, -, e0, -, -, -, -, -, -⟩ := idx1 t
    funext a; apply Fin.ext
    match a with
    | ⟨0, _⟩ => show win1_3.index t (0 : Fin 1) * 64 + 1 * (y 0).val = (y 0).val; omega
  show V c main_arg5 (((cfg1.win 3).blk t).view.emb y) = _
  rw [e]

/-- The window over `main_arg6` is the whole array at every point. -/
theorem blk1_4 (c : Dev nD) (t : Fin cfg1.N) : iblk1 V c 4 t = V c main_arg6 := by
  funext y
  have e : ((cfg1.win 4).blk t).view.emb y = y := by
    obtain ⟨-, -, -, -, -, -, -, e0, e1, -, -, -, -⟩ := idx1 t
    funext a; apply Fin.ext
    match a with
    | ⟨0, _⟩ => show win1_4.index t (0 : Fin 2) * 64 + 1 * (y 0).val = (y 0).val; omega
    | ⟨1, _⟩ => show win1_4.index t (1 : Fin 2) * 64 + 1 * (y 1).val = (y 1).val; omega
  show V c main_arg6 (((cfg1.win 4).blk t).view.emb y) = _
  rw [e]

/-- The window over `main_arg7` is the whole array at every point. -/
theorem blk1_5 (c : Dev nD) (t : Fin cfg1.N) : iblk1 V c 5 t = V c main_arg7 := by
  funext y
  have e : ((cfg1.win 5).blk t).view.emb y = y := by
    obtain ⟨-, -, -, -, -, -, -, -, -, e0, -, -, -⟩ := idx1 t
    funext a; apply Fin.ext
    match a with
    | ⟨0, _⟩ => show win1_5.index t (0 : Fin 1) * 64 + 1 * (y 0).val = (y 0).val; omega
  show V c main_arg7 (((cfg1.win 5).blk t).view.emb y) = _
  rw [e]

/-- The window over `main_arg8` is the whole array at every point. -/
theorem blk1_6 (c : Dev nD) (t : Fin cfg1.N) : iblk1 V c 6 t = V c main_arg8 := by
  funext y
  have e : ((cfg1.win 6).blk t).view.emb y = y := by
    obtain ⟨-, -, -, -, -, -, -, -, -, -, e0, -, -⟩ := idx1 t
    funext a; apply Fin.ext
    match a with
    | ⟨0, _⟩ => show win1_6.index t (0 : Fin 1) * 64 + 1 * (y 0).val = (y 0).val; omega
  show V c main_arg8 (((cfg1.win 6).blk t).view.emb y) = _
  rw [e]

/-- What point `t` writes back is block `t` of the whole-array function: the body's arithmetic reads one row of each
    row-blocked operand, and local row `p` of block `t` is row `t·10000 + p` of the array. -/
theorem flushed1 (c : Dev nD) (t : Fin cfg1.N) :
    (dat1 V c).flushed 7 t = ((cfg1.win 7).blk t).view.read (Elt Ideal) (layerArr (V c main_v25) (V c main_v13) (V c main_arg4) (V c main_arg5) (V c main_arg6) (V c main_arg7) (V c main_arg8)) := by
  show (cfg1.win 7).cut (grid1.coords t) ((dat1 V c).after 7 t) = _
  rw [after1_7]
  unfold out1_7
  rw [View.canon_unit_zero hz2]
  simp only [View.ld_unit_zero (S := S10000x64) hz2, View.ld_unit_zero (S := S64x64) hz2, View.ld_unit_zero (S := S64) hz1]
  rw [blk1_2 V c t, blk1_3 V c t, blk1_4 V c t, blk1_5 V c t, blk1_6 V c t]
  have ht : t.val < 10 := t.isLt
  funext j
  obtain ⟨p, q, rfl⟩ : ∃ (p : Fin 10000) (q : Fin 64), j = ix2 p q := ⟨j 0, j 1, eq_ix2 j⟩
  have hp := p.isLt
  have eo : ((cfg1.win 7).blk t).view.emb (ix2 p q) = ix2 ⟨t.val * 10000 + p.val, by omega⟩ q := by
    obtain ⟨-, -, -, -, -, -, -, -, -, -, -, e0, e1⟩ := idx1 t
    funext a; apply Fin.ext
    match a with
    | ⟨0, _⟩ => show win1_7.index t (0 : Fin 2) * 10000 + 1 * p.val = t.val * 10000 + p.val; omega
    | ⟨1, _⟩ => show win1_7.index t (1 : Fin 2) * 64 + 1 * q.val = q.val; omega
  show k1_pay1 (k1_pay2 (iblk1 V c 1 t)) (k1_pay3 (iblk1 V c 0 t) (iblk1 V c 1 t) (V c main_arg4) (V c main_arg6) (V c main_arg5) (V c main_arg7)) (k1_pay4 (V c main_arg8)) (ix2 p q)
      = (layerArr (V c main_v25) (V c main_v13) (V c main_arg4) (V c main_arg5) (V c main_arg6) (V c main_arg7) (V c main_arg8)) (((cfg1.win 7).blk t).view.emb (ix2 p q))
  rw [eo, layerArr_apply]
  refine (KernelPay.layer_pay1 (iblk1 V c 0 t) (iblk1 V c 1 t) (V c main_arg4) (V c main_arg5) (V c main_arg6) (V c main_arg7) (V c main_arg8) p q).trans ?_
  have hr0 : rowOf (iblk1 V c 0 t) p = rowOf (V c main_v25) ⟨t.val * 10000 + p.val, by omega⟩ := funext fun k => blk1_0 V c t p k
  have hr1 : rowOf (iblk1 V c 1 t) p = rowOf (V c main_v13) ⟨t.val * 10000 + p.val, by omega⟩ := funext fun k => blk1_1 V c t p k
  rw [hr0, hr1]

/-- An index of the output array is in point `t`'s block iff each coordinate is in the block's range on its axis. -/
theorem mem_blk1 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v26).slice (win1_7.rect t)).set ↔ _
  rw [View.set_slice_whole, Rect.mem_set_unit]
  exact Iff.rfl

/-- The ten blocks tile the output array: row `i 0` lies in block `(i 0) / 10000`. -/
theorem cover1 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hlt : (i 0).val / 10000 < 10 := by omega
  obtain ⟨t, ht⟩ : ∃ t : Fin cfg1.N, t.val = (i 0).val / 10000 := ⟨⟨(i 0).val / 10000, hlt⟩, rfl⟩
  refine ⟨t, flush1_7 t, ?_⟩
  rw [mem_blk1]
  obtain ⟨-, -, -, -, -, -, -, -, -, -, -, e0, e1⟩ := idx1 t
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 64 ≤ (i 1).val ∧ (i 1).val < win1_7.index t (1 : Fin 2) * 64 + 64; omega

/-- After the region the output array holds the whole-array function of the arrays the region was entered with. -/
theorem final1 (c : Dev nD) : (dat1 V c).arrAt 7 cfg1.N = layerArr (V c main_v25) (V c main_v13) (V c main_arg4) (V c main_arg5) (V c main_arg6) (V c main_arg7) (V c main_arg8) :=
  (dat1 V c).arrAt_eq_of_cover 7 (layerArr (V c main_v25) (V c main_v13) (V c main_arg4) (V c main_arg5) (V c main_arg6) (V c main_arg7) (V c main_arg8)) (fun t _ => flushed1 V c t) (cover1)

/-! ## Region 2: the second layer -/

/-- The index maps over the ten grid points: a window of ten-thousand-row blocks sits at block row `t`, column block 0;
    a weight or bias window is the whole array at every point. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 1) = 0
    ∧ win2_6.index t (0 : Fin 1) = 0
    ∧ win2_7.index t (0 : Fin 2) = t.val
    ∧ win2_7.index t (1 : Fin 2) = 0 :=
  (by decide +kernel : ∀ t : Fin grid2.N, _)

/-- Block `t` of the row-blocked array `main_v38` reads, at local row `p`, the array's row `t·10000 + p`. -/
theorem blk2_0 (c : Dev nD) (t : Fin cfg2.N) (p : Fin 10000) (k : Fin 64) :
    iblk2 V c 0 t (ix2 p k) = V c main_v38 (ix2 ⟨t.val * 10000 + p.val, by have ht : t.val < 10 := t.isLt; have hp := p.isLt; omega⟩ k) := by
  have ht : t.val < 10 := t.isLt
  have hp := p.isLt
  have e : ((cfg2.win 0).blk t).view.emb (ix2 p k) = ix2 ⟨t.val * 10000 + p.val, by omega⟩ k := by
    obtain ⟨e0, e1, -, -, -, -, -, -, -, -, -, -, -⟩ := idx2 t
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  show V c main_v38 (((cfg2.win 0).blk t).view.emb (ix2 p k)) = _
  rw [e]

/-- Block `t` of the row-blocked array `main_v26` reads, at local row `p`, the array's row `t·10000 + p`. -/
theorem blk2_1 (c : Dev nD) (t : Fin cfg2.N) (p : Fin 10000) (k : Fin 64) :
    iblk2 V c 1 t (ix2 p k) = V c main_v26 (ix2 ⟨t.val * 10000 + p.val, by have ht : t.val < 10 := t.isLt; have hp := p.isLt; omega⟩ k) := by
  have ht : t.val < 10 := t.isLt
  have hp := p.isLt
  have e : ((cfg2.win 1).blk t).view.emb (ix2 p k) = ix2 ⟨t.val * 10000 + p.val, by omega⟩ k := by
    obtain ⟨-, -, e0, e1, -, -, -, -, -, -, -, -, -⟩ := idx2 t
    funext a; apply Fin.ext
    match a with
    | ⟨0, _⟩ => show win2_1.index t (0 : Fin 2) * 10000 + 1 * p.val = t.val * 10000 + p.val; omega
    | ⟨1, _⟩ => show win2_1.index t (1 : Fin 2) * 64 + 1 * k.val = k.val; omega
  show V c main_v26 (((cfg2.win 1).blk t).view.emb (ix2 p k)) = _
  rw [e]

/-- The window over `main_arg9` is the whole array at every point. -/
theorem blk2_2 (c : Dev nD) (t : Fin cfg2.N) : iblk2 V c 2 t = V c main_arg9 := by
  funext y
  have e : ((cfg2.win 2).blk t).view.emb y = y := by
    obtain ⟨-, -, -, -, e0, e1, -, -, -, -, -, -, -⟩ := idx2 t
    funext a; apply Fin.ext
    match a with
    | ⟨0, _⟩ => show win2_2.index t (0 : Fin 2) * 64 + 1 * (y 0).val = (y 0).val; omega
    | ⟨1, _⟩ => show win2_2.index t (1 : Fin 2) * 64 + 1 * (y 1).val = (y 1).val; omega
  show V c main_arg9 (((cfg2.win 2).blk t).view.emb y) = _
  rw [e]

/-- The window over `main_arg10` is the whole array at every point. -/
theorem blk2_3 (c : Dev nD) (t : Fin cfg2.N) : iblk2 V c 3 t = V c main_arg10 := by
  funext y
  have e : ((cfg2.win 3).blk t).view.emb y = y := by
    obtain ⟨-, -, -, -, -, -, e0, -, -, -, -, -, -⟩ := idx2 t
    funext a; apply Fin.ext
    match a with
    | ⟨0, _⟩ => show win2_3.index t (0 : Fin 1) * 64 + 1 * (y 0).val = (y 0).val; omega
  show V c main_arg10 (((cfg2.win 3).blk t).view.emb y) = _
  rw [e]

/-- The window over `main_arg11` is the whole array at every point. -/
theorem blk2_4 (c : Dev nD) (t : Fin cfg2.N) : iblk2 V c 4 t = V c main_arg11 := by
  funext y
  have e : ((cfg2.win 4).blk t).view.emb y = y := by
    obtain ⟨-, -, -, -, -, -, -, e0, e1, -, -, -, -⟩ := idx2 t
    funext a; apply Fin.ext
    match a with
    | ⟨0, _⟩ => show win2_4.index t (0 : Fin 2) * 64 + 1 * (y 0).val = (y 0).val; omega
    | ⟨1, _⟩ => show win2_4.index t (1 : Fin 2) * 64 + 1 * (y 1).val = (y 1).val; omega
  show V c main_arg11 (((cfg2.win 4).blk t).view.emb y) = _
  rw [e]

/-- The window over `main_arg12` is the whole array at every point. -/
theorem blk2_5 (c : Dev nD) (t : Fin cfg2.N) : iblk2 V c 5 t = V c main_arg12 := by
  funext y
  have e : ((cfg2.win 5).blk t).view.emb y = y := by
    obtain ⟨-, -, -, -, -, -, -, -, -, e0, -, -, -⟩ := idx2 t
    funext a; apply Fin.ext
    match a with
    | ⟨0, _⟩ => show win2_5.index t (0 : Fin 1) * 64 + 1 * (y 0).val = (y 0).val; omega
  show V c main_arg12 (((cfg2.win 5).blk t).view.emb y) = _
  rw [e]

/-- The window over `main_arg13` is the whole array at every point. -/
theorem blk2_6 (c : Dev nD) (t : Fin cfg2.N) : iblk2 V c 6 t = V c main_arg13 := by
  funext y
  have e : ((cfg2.win 6).blk t).view.emb y = y := by
    obtain ⟨-, -, -, -, -, -, -, -, -, -, e0, -, -⟩ := idx2 t
    funext a; apply Fin.ext
    match a with
    | ⟨0, _⟩ => show win2_6.index t (0 : Fin 1) * 64 + 1 * (y 0).val = (y 0).val; omega
  show V c main_arg13 (((cfg2.win 6).blk t).view.emb y) = _
  rw [e]

/-- What point `t` writes back is block `t` of the whole-array function: the body's arithmetic reads one row of each
    row-blocked operand, and local row `p` of block `t` is row `t·10000 + p` of the array. -/
theorem flushed2 (c : Dev nD) (t : Fin cfg2.N) :
    (dat2 V c).flushed 7 t = ((cfg2.win 7).blk t).view.read (Elt Ideal) (layerArr (V c main_v38) (V c main_v26) (V c main_arg9) (V c main_arg10) (V c main_arg11) (V c main_arg12) (V c main_arg13)) := by
  show (cfg2.win 7).cut (grid2.coords t) ((dat2 V c).after 7 t) = _
  rw [after2_7]
  unfold out2_7
  rw [View.canon_unit_zero hz2]
  simp only [View.ld_unit_zero (S := S10000x64) hz2, View.ld_unit_zero (S := S64x64) hz2, View.ld_unit_zero (S := S64) hz1]
  rw [blk2_2 V c t, blk2_3 V c t, blk2_4 V c t, blk2_5 V c t, blk2_6 V c t]
  have ht : t.val < 10 := t.isLt
  funext j
  obtain ⟨p, q, rfl⟩ : ∃ (p : Fin 10000) (q : Fin 64), j = ix2 p q := ⟨j 0, j 1, eq_ix2 j⟩
  have hp := p.isLt
  have eo : ((cfg2.win 7).blk t).view.emb (ix2 p q) = ix2 ⟨t.val * 10000 + p.val, by omega⟩ q := by
    obtain ⟨-, -, -, -, -, -, -, -, -, -, -, e0, e1⟩ := idx2 t
    funext a; apply Fin.ext
    match a with
    | ⟨0, _⟩ => show win2_7.index t (0 : Fin 2) * 10000 + 1 * p.val = t.val * 10000 + p.val; omega
    | ⟨1, _⟩ => show win2_7.index t (1 : Fin 2) * 64 + 1 * q.val = q.val; omega
  show k2_pay1 (k2_pay2 (iblk2 V c 1 t)) (k2_pay3 (iblk2 V c 0 t) (iblk2 V c 1 t) (V c main_arg9) (V c main_arg11) (V c main_arg10) (V c main_arg12)) (k2_pay4 (V c main_arg13)) (ix2 p q)
      = (layerArr (V c main_v38) (V c main_v26) (V c main_arg9) (V c main_arg10) (V c main_arg11) (V c main_arg12) (V c main_arg13)) (((cfg2.win 7).blk t).view.emb (ix2 p q))
  rw [eo, layerArr_apply]
  refine (KernelPay.layer_pay2 (iblk2 V c 0 t) (iblk2 V c 1 t) (V c main_arg9) (V c main_arg10) (V c main_arg11) (V c main_arg12) (V c main_arg13) p q).trans ?_
  have hr0 : rowOf (iblk2 V c 0 t) p = rowOf (V c main_v38) ⟨t.val * 10000 + p.val, by omega⟩ := funext fun k => blk2_0 V c t p k
  have hr1 : rowOf (iblk2 V c 1 t) p = rowOf (V c main_v26) ⟨t.val * 10000 + p.val, by omega⟩ := funext fun k => blk2_1 V c t p k
  rw [hr0, hr1]

/-- An index of the output array is in point `t`'s block iff each coordinate is in the block's range on its axis. -/
theorem mem_blk2 (t : Fin cfg2.N) (i : S100000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v39).slice (win2_7.rect t)).set ↔ _
  rw [View.set_slice_whole, Rect.mem_set_unit]
  exact Iff.rfl

/-- The ten blocks tile the output array: row `i 0` lies in block `(i 0) / 10000`. -/
theorem cover2 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have hlt : (i 0).val / 10000 < 10 := by omega
  obtain ⟨t, ht⟩ : ∃ t : Fin cfg2.N, t.val = (i 0).val / 10000 := ⟨⟨(i 0).val / 10000, hlt⟩, rfl⟩
  refine ⟨t, flush2_7 t, ?_⟩
  rw [mem_blk2]
  obtain ⟨-, -, -, -, -, -, -, -, -, -, -, e0, e1⟩ := idx2 t
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 64 ≤ (i 1).val ∧ (i 1).val < win2_7.index t (1 : Fin 2) * 64 + 64; omega

/-- After the region the output array holds the whole-array function of the arrays the region was entered with. -/
theorem final2 (c : Dev nD) : (dat2 V c).arrAt 7 cfg2.N = layerArr (V c main_v38) (V c main_v26) (V c main_arg9) (V c main_arg10) (V c main_arg11) (V c main_arg12) (V c main_arg13) :=
  (dat2 V c).arrAt_eq_of_cover 7 (layerArr (V c main_v38) (V c main_v26) (V c main_arg9) (V c main_arg10) (V c main_arg11) (V c main_arg12) (V c main_arg13)) (fun t _ => flushed2 V c t) (cover2)

/-! ## Region 3: the last layer -/

/-- The index maps over the ten grid points: a window of ten-thousand-row blocks sits at block row `t`, column block 0;
    a weight or bias window is the whole array at every point. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- Block `t` of the row-blocked array `main_v51` reads, at local row `p`, the array's row `t·10000 + p`. -/
theorem blk3_0 (c : Dev nD) (t : Fin cfg3.N) (p : Fin 10000) (k : Fin 64) :
    iblk3 V c 0 t (ix2 p k) = V c main_v51 (ix2 ⟨t.val * 10000 + p.val, by have ht : t.val < 10 := t.isLt; have hp := p.isLt; omega⟩ k) := by
  have ht : t.val < 10 := t.isLt
  have hp := p.isLt
  have e : ((cfg3.win 0).blk t).view.emb (ix2 p k) = ix2 ⟨t.val * 10000 + p.val, by omega⟩ k := by
    obtain ⟨e0, e1, -, -, -, -, -, -, -, -, -⟩ := idx3 t
    funext a; apply Fin.ext
    match a with
    | ⟨0, _⟩ => show win3_0.index t (0 : Fin 2) * 10000 + 1 * p.val = t.val * 10000 + p.val; omega
    | ⟨1, _⟩ => show win3_0.index t (1 : Fin 2) * 64 + 1 * k.val = k.val; omega
  show V c main_v51 (((cfg3.win 0).blk t).view.emb (ix2 p k)) = _
  rw [e]

/-- Block `t` of the row-blocked array `main_v39` reads, at local row `p`, the array's row `t·10000 + p`. -/
theorem blk3_1 (c : Dev nD) (t : Fin cfg3.N) (p : Fin 10000) (k : Fin 64) :
    iblk3 V c 1 t (ix2 p k) = V c main_v39 (ix2 ⟨t.val * 10000 + p.val, by have ht : t.val < 10 := t.isLt; have hp := p.isLt; omega⟩ k) := by
  have ht : t.val < 10 := t.isLt
  have hp := p.isLt
  have e : ((cfg3.win 1).blk t).view.emb (ix2 p k) = ix2 ⟨t.val * 10000 + p.val, by omega⟩ k := by
    obtain ⟨-, -, e0, e1, -, -, -, -, -, -, -⟩ := idx3 t
    funext a; apply Fin.ext
    match a with
    | ⟨0, _⟩ => show win3_1.index t (0 : Fin 2) * 10000 + 1 * p.val = t.val * 10000 + p.val; omega
    | ⟨1, _⟩ => show win3_1.index t (1 : Fin 2) * 64 + 1 * k.val = k.val; omega
  show V c main_v39 (((cfg3.win 1).blk t).view.emb (ix2 p k)) = _
  rw [e]

/-- The window over `main_arg14` is the whole array at every point. -/
theorem blk3_2 (c : Dev nD) (t : Fin cfg3.N) : iblk3 V c 2 t = V c main_arg14 := by
  funext y
  have e : ((cfg3.win 2).blk t).view.emb y = y := by
    obtain ⟨-, -, -, -, e0, e1, -, -, -, -, -⟩ := idx3 t
    funext a; apply Fin.ext
    match a with
    | ⟨0, _⟩ => show win3_2.index t (0 : Fin 2) * 64 + 1 * (y 0).val = (y 0).val; omega
    | ⟨1, _⟩ => show win3_2.index t (1 : Fin 2) * 16 + 1 * (y 1).val = (y 1).val; omega
  show V c main_arg14 (((cfg3.win 2).blk t).view.emb y) = _
  rw [e]

/-- The window over `main_arg15` is the whole array at every point. -/
theorem blk3_3 (c : Dev nD) (t : Fin cfg3.N) : iblk3 V c 3 t = V c main_arg15 := by
  funext y
  have e : ((cfg3.win 3).blk t).view.emb y = y := by
    obtain ⟨-, -, -, -, -, -, e0, -, -, -, -⟩ := idx3 t
    funext a; apply Fin.ext
    match a with
    | ⟨0, _⟩ => show win3_3.index t (0 : Fin 1) * 16 + 1 * (y 0).val = (y 0).val; omega
  show V c main_arg15 (((cfg3.win 3).blk t).view.emb y) = _
  rw [e]

/-- The window over `main_arg16` is the whole array at every point. -/
theorem blk3_4 (c : Dev nD) (t : Fin cfg3.N) : iblk3 V c 4 t = V c main_arg16 := by
  funext y
  have e : ((cfg3.win 4).blk t).view.emb y = y := by
    obtain ⟨-, -, -, -, -, -, -, e0, e1, -, -⟩ := idx3 t
    funext a; apply Fin.ext
    match a with
    | ⟨0, _⟩ => show win3_4.index t (0 : Fin 2) * 64 + 1 * (y 0).val = (y 0).val; omega
    | ⟨1, _⟩ => show win3_4.index t (1 : Fin 2) * 16 + 1 * (y 1).val = (y 1).val; omega
  show V c main_arg16 (((cfg3.win 4).blk t).view.emb y) = _
  rw [e]

/-- What point `t` writes back is block `t` of the whole-array function: the body's arithmetic reads one row of each
    row-blocked operand, and local row `p` of block `t` is row `t·10000 + p` of the array. -/
theorem flushed3 (c : Dev nD) (t : Fin cfg3.N) :
    (dat3 V c).flushed 5 t = ((cfg3.win 5).blk t).view.read (Elt Ideal) (finArr (V c main_v51) (V c main_v39) (V c main_arg14) (V c main_arg15) (V c main_arg16)) := by
  show (cfg3.win 5).cut (grid3.coords t) ((dat3 V c).after 5 t) = _
  rw [after3_5]
  unfold out3_5
  rw [View.canon_unit_zero hz2]
  simp only [View.ld_unit_zero (S := S10000x64) hz2, View.ld_unit_zero (S := S64x16) hz2, View.ld_unit_zero (S := S16) hz1]
  rw [blk3_2 V c t, blk3_3 V c t, blk3_4 V c t]
  have ht : t.val < 10 := t.isLt
  funext j
  obtain ⟨p, q, rfl⟩ : ∃ (p : Fin 10000) (q : Fin 16), j = ix2 p q := ⟨j 0, j 1, eq_ix2 j⟩
  have hp := p.isLt
  have eo : ((cfg3.win 5).blk t).view.emb (ix2 p q) = ix2 ⟨t.val * 10000 + p.val, by omega⟩ q := by
    obtain ⟨-, -, -, -, -, -, -, -, -, e0, e1⟩ := idx3 t
    funext a; apply Fin.ext
    match a with
    | ⟨0, _⟩ => show win3_5.index t (0 : Fin 2) * 10000 + 1 * p.val = t.val * 10000 + p.val; omega
    | ⟨1, _⟩ => show win3_5.index t (1 : Fin 2) * 16 + 1 * q.val = q.val; omega
  show k3_pay1 (iblk3 V c 0 t) (iblk3 V c 1 t) (V c main_arg14) (V c main_arg16) (V c main_arg15) (ix2 p q)
      = (finArr (V c main_v51) (V c main_v39) (V c main_arg14) (V c main_arg15) (V c main_arg16)) (((cfg3.win 5).blk t).view.emb (ix2 p q))
  rw [eo, finArr_apply]
  refine (KernelPay.fin_pay (iblk3 V c 0 t) (iblk3 V c 1 t) (V c main_arg14) (V c main_arg15) (V c main_arg16) p q).trans ?_
  have hr0 : rowOf (iblk3 V c 0 t) p = rowOf (V c main_v51) ⟨t.val * 10000 + p.val, by omega⟩ := funext fun k => blk3_0 V c t p k
  have hr1 : rowOf (iblk3 V c 1 t) p = rowOf (V c main_v39) ⟨t.val * 10000 + p.val, by omega⟩ := funext fun k => blk3_1 V c t p k
  rw [hr0, hr1]

/-- An index of the output array is in point `t`'s block iff each coordinate is in the block's range on its axis. -/
theorem mem_blk3 (t : Fin cfg3.N) (i : S100000x16.Idx) :
    i ∈ ((cfg3.win 5).blk t).view.set ↔ ∀ a : Fin 2, win3_5.index t a * S10000x16.size a ≤ (i a).val ∧ (i a).val < win3_5.index t a * S10000x16.size a + S10000x16.size a := by
  show i ∈ ((View.whole main_v52).slice (win3_5.rect t)).set ↔ _
  rw [View.set_slice_whole, Rect.mem_set_unit]
  exact Iff.rfl

/-- The ten blocks tile the output array: row `i 0` lies in block `(i 0) / 10000`. -/
theorem cover3 (i : S100000x16.Idx) : ∃ t : Fin cfg3.N, (cfg3.win 5).flush t = true ∧ i ∈ ((cfg3.win 5).blk t).view.set := by
  have hi0 : (i 0).val < 100000 := (i 0).isLt
  have hi1 : (i 1).val < 16 := (i 1).isLt
  have hlt : (i 0).val / 10000 < 10 := by omega
  obtain ⟨t, ht⟩ : ∃ t : Fin cfg3.N, t.val = (i 0).val / 10000 := ⟨⟨(i 0).val / 10000, hlt⟩, rfl⟩
  refine ⟨t, flush3_5 t, ?_⟩
  rw [mem_blk3]
  obtain ⟨-, -, -, -, -, -, -, -, -, e0, e1⟩ := idx3 t
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 16 ≤ (i 1).val ∧ (i 1).val < win3_5.index t (1 : Fin 2) * 16 + 16; omega

/-- After the region the output array holds the whole-array function of the arrays the region was entered with. -/
theorem final3 (c : Dev nD) : (dat3 V c).arrAt 5 cfg3.N = finArr (V c main_v51) (V c main_v39) (V c main_arg14) (V c main_arg15) (V c main_arg16) :=
  (dat3 V c).arrAt_eq_of_cover 5 (finArr (V c main_v51) (V c main_v39) (V c main_arg14) (V c main_arg15) (V c main_arg16)) (fun t _ => flushed3 V c t) (cover3)

end Cert.KernelIdeal.BlockValue

end
-- ==== Proof.HostValue.lean ====
/-
  The kernel program between its four regions.  Before the first region the host splits the edge list into sources and
  destinations, counts every node's incoming edges (a scatter-add of ones), clips the count below at 1 and takes its
  reciprocal.  Before each later region it gathers the previous region's rows at the edge sources, scatter-adds them at
  the edge destinations and multiplies every row by the node's reciprocal count: the neighbour mean.  Nothing else
  writes a buffer a region reads, so the arrays each region is entered with are the launch arguments, the previous
  region's output and that mean, and the program's result is one composed function of its seventeen arguments.
-/
import proofs.«177046_j44306882625629_1_alg».proof.Proof.KernelIdealFrameP
import proofs.«177046_j44306882625629_1_alg».proof.Proof.Spec
import proofs.«177046_j44306882625629_1_alg».proof.Proof.BlockValue

set_option maxRecDepth 16384

noncomputable section

namespace Cert.KernelIdeal.HostValue

open Cert.KernelIdeal Cert.KernelIdeal.Gen Cert.Spec
open Idealize.ShloMosaic Idealize.ShloMosaic.TcCoe Idealize.ShloMosaic.StableHlo Idealize.SL.Sem

/-- Integer and float arrays of a shape, at the ideal instance. -/
abbrev I32 (S : Shape) := (⟨S, .i32⟩ : BufTy).Contents (Elt Ideal)
abbrev F32 (S : Shape) := (⟨S, .f32⟩ : BufTy).Contents (Elt Ideal)

/-- Row 0 of the edge list: every edge's source node. -/
def srcOf (e : I32 S2x1600000) : I32 S1600000 :=
  shapeCast _ (extractStridedSlice S1x1600000 ![0, 0] e slices_S2x1600000_S1x1600000_0_0) shapeCasts_S1x1600000_S1600000

/-- Row 1 of the edge list: every edge's destination node. -/
def dstOf (e : I32 S2x1600000) : I32 S1600000 :=
  shapeCast _ (extractStridedSlice S1x1600000 ![1, 0] e slices_S2x1600000_S1x1600000_1_0) shapeCasts_S1x1600000_S1600000

/-- A vector of 1s over the nodes. -/
def onesN : F32 S100000 := broadcastInDim S100000 ![] bcast_S_S100000 (constant (F := Ideal) S_ .f32 0x3F800000#32)

/-- Every node's number of incoming edges: ones scatter-added at the destinations, from 0. -/
def degOf (dst : I32 S1600000) : F32 S100000 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The counts clipped below at 1. -/
def cntOf (dst : I32 S1600000) : F32 S100000 :=
  maximumf (F := Ideal) (s := S100000) (φ := .f32) (degOf dst) onesN

/-- The column of reciprocal clipped counts, 1 / max deg 1. -/
def cinvOf (dst : I32 S1600000) : F32 S100000x1 :=
  broadcastInDim S100000x1 ![0] bcast_S100000_S100000x1_0
    (Host.divf (F := Ideal) (s := S100000) (φ := .f32) onesN (cntOf dst))

/-- The neighbour sums of an array of node rows: its rows gathered at the edge sources (a negative index wraps by the
    number of nodes), scatter-added at the edge destinations, from 0. -/
def aggOf (src dst : I32 S1600000) (X : F32 S100000x64) : F32 S100000x64 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The kernel's neighbour mean: the sums times the reciprocal-count column broadcast along the rows. -/
def meanK (src dst : I32 S1600000) (cinv : F32 S100000x1) (X : F32 S100000x64) : F32 S100000x64 :=
  mulf (F := Ideal) (s := S100000x64) (φ := .f32) (aggOf src dst X)
    (broadcastInDim S100000x64 ![0, 1] bcast_S100000x1_S100000x64_0_1 cinv)

/-- The whole network as the kernel program computes it, of its seventeen arguments. -/
def netK (x0 : F32 S100000x32) (e : I32 S2x1600000) (x2 : F32 S32x64) (x3 : F32 S64)
    (x4 : F32 S64x64) (x5 : F32 S64) (x6 : F32 S64x64) (x7 x8 : F32 S64)
    (x9 : F32 S64x64) (x10 : F32 S64) (x11 : F32 S64x64) (x12 x13 : F32 S64)
    (x14 : F32 S64x16) (x15 : F32 S16) (x16 : F32 S64x16) : F32 S100000x16 :=
  finArr (meanK (srcOf e) (dstOf e) (cinvOf (dstOf e))
      (layerArr (meanK (srcOf e) (dstOf e) (cinvOf (dstOf e)) (layerArr (meanK (srcOf e) (dstOf e) (cinvOf (dstOf e)) (projArr x0 x2 x3)) (projArr x0 x2 x3) x4 x5 x6 x7 x8))
        (layerArr (meanK (srcOf e) (dstOf e) (cinvOf (dstOf e)) (projArr x0 x2 x3)) (projArr x0 x2 x3) x4 x5 x6 x7 x8) x9 x10 x11 x12 x13))
    (layerArr (meanK (srcOf e) (dstOf e) (cinvOf (dstOf e)) (layerArr (meanK (srcOf e) (dstOf e) (cinvOf (dstOf e)) (projArr x0 x2 x3)) (projArr x0 x2 x3) x4 x5 x6 x7 x8))
      (layerArr (meanK (srcOf e) (dstOf e) (cinvOf (dstOf e)) (projArr x0 x2 x3)) (projArr x0 x2 x3) x4 x5 x6 x7 x8) x9 x10 x11 x12 x13)
    x14 x15 x16

variable (m : (ℓ : Loc nD τ sig) → Buf (Elt Ideal) ℓ) (ρ : Dev nD → PrngReg)

/-! ## What each host stretch leaves, one buffer at a time -/

/-- At the launch a buffer holds the launch memory. -/
theorem W0_eq (c : Dev nD) (b : Ref sig .tc) : W0 m ρ c (Proc.devRef .tc b) = m ((c : Thread nD τ).loc b) := rfl

theorem s0_arg0 (c : Dev nD) : W1 m ρ c (Proc.devRef .tc main_arg0) = W0 m ρ c (Proc.devRef .tc main_arg0) := by
  show StableHlo.after hostOps0 (W0 m ρ c) (Proc.devRef .tc main_arg0) = _
  after_results <;> rfl
theorem s0_arg2 (c : Dev nD) : W1 m ρ c (Proc.devRef .tc main_arg2) = W0 m ρ c (Proc.devRef .tc main_arg2) := by
  show StableHlo.after hostOps0 (W0 m ρ c) (Proc.devRef .tc main_arg2) = _
  after_results <;> rfl
theorem s0_arg3 (c : Dev nD) : W1 m ρ c (Proc.devRef .tc main_arg3) = W0 m ρ c (Proc.devRef .tc main_arg3) := by
  show StableHlo.after hostOps0 (W0 m ρ c) (Proc.devRef .tc main_arg3) = _
  after_results <;> rfl
theorem s0_arg4 (c : Dev nD) : W1 m ρ c (Proc.devRef .tc main_arg4) = W0 m ρ c (Proc.devRef .tc main_arg4) := by
  show StableHlo.after hostOps0 (W0 m ρ c) (Proc.devRef .tc main_arg4) = _
  after_results <;> rfl
theorem s0_arg5 (c : Dev nD) : W1 m ρ c (Proc.devRef .tc main_arg5) = W0 m ρ c (Proc.devRef .tc main_arg5) := by
  show StableHlo.after hostOps0 (W0 m ρ c) (Proc.devRef .tc main_arg5) = _
  after_results <;> rfl
theorem s0_arg6 (c : Dev nD) : W1 m ρ c (Proc.devRef .tc main_arg6) = W0 m ρ c (Proc.devRef .tc main_arg6) := by
  show StableHlo.after hostOps0 (W0 m ρ c) (Proc.devRef .tc main_arg6) = _
  after_results <;> rfl
theorem s0_arg7 (c : Dev nD) : W1 m ρ c (Proc.devRef .tc main_arg7) = W0 m ρ c (Proc.devRef .tc main_arg7) := by
  show StableHlo.after hostOps0 (W0 m ρ c) (Proc.devRef .tc main_arg7) = _
  after_results <;> rfl
theorem s0_arg8 (c : Dev nD) : W1 m ρ c (Proc.devRef .tc main_arg8) = W0 m ρ c (Proc.devRef .tc main_arg8) := by
  show StableHlo.after hostOps0 (W0 m ρ c) (Proc.devRef .tc main_arg8) = _
  after_results <;> rfl
theorem s0_arg9 (c : Dev nD) : W1 m ρ c (Proc.devRef .tc main_arg9) = W0 m ρ c (Proc.devRef .tc main_arg9) := by
  show StableHlo.after hostOps0 (W0 m ρ c) (Proc.devRef .tc main_arg9) = _
  after_results <;> rfl
theorem s0_arg10 (c : Dev nD) : W1 m ρ c (Proc.devRef .tc main_arg10) = W0 m ρ c (Proc.devRef .tc main_arg10) := by
  show StableHlo.after hostOps0 (W0 m ρ c) (Proc.devRef .tc main_arg10) = _
  after_results <;> rfl
theorem s0_arg11 (c : Dev nD) : W1 m ρ c (Proc.devRef .tc main_arg11) = W0 m ρ c (Proc.devRef .tc main_arg11) := by
  show StableHlo.after hostOps0 (W0 m ρ c) (Proc.devRef .tc main_arg11) = _
  after_results <;> rfl
theorem s0_arg12 (c : Dev nD) : W1 m ρ c (Proc.devRef .tc main_arg12) = W0 m ρ c (Proc.devRef .tc main_arg12) := by
  show StableHlo.after hostOps0 (W0 m ρ c) (Proc.devRef .tc main_arg12) = _
  after_results <;> rfl
theorem s0_arg13 (c : Dev nD) : W1 m ρ c (Proc.devRef .tc main_arg13) = W0 m ρ c (Proc.devRef .tc main_arg13) := by
  show StableHlo.after hostOps0 (W0 m ρ c) (Proc.devRef .tc main_arg13) = _
  after_results <;> rfl
theorem s0_arg14 (c : Dev nD) : W1 m ρ c (Proc.devRef .tc main_arg14) = W0 m ρ c (Proc.devRef .tc main_arg14) := by
  show StableHlo.after hostOps0 (W0 m ρ c) (Proc.devRef .tc main_arg14) = _
  after_results <;> rfl
theorem s0_arg15 (c : Dev nD) : W1 m ρ c (Proc.devRef .tc main_arg15) = W0 m ρ c (Proc.devRef .tc main_arg15) := by
  show StableHlo.after hostOps0 (W0 m ρ c) (Proc.devRef .tc main_arg15) = _
  after_results <;> rfl
theorem s0_arg16 (c : Dev nD) : W1 m ρ c (Proc.devRef .tc main_arg16) = W0 m ρ c (Proc.devRef .tc main_arg16) := by
  show StableHlo.after hostOps0 (W0 m ρ c) (Proc.devRef .tc main_arg16) = _
  after_results <;> rfl

/-- Stretch 0 splits the edge list and computes the reciprocal clipped counts. -/
theorem s0_src (c : Dev nD) : W1 m ρ c (Proc.devRef .tc main_v1) = srcOf (m ((c : Thread nD τ).loc main_arg1)) := by
  show StableHlo.after hostOps0 (W0 m ρ c) (Proc.devRef .tc main_v1) = _
  after_results <;> rfl
theorem s0_dst (c : Dev nD) : W1 m ρ c (Proc.devRef .tc main_v3) = dstOf (m ((c : Thread nD τ).loc main_arg1)) := by
  show StableHlo.after hostOps0 (W0 m ρ c) (Proc.devRef .tc main_v3) = _
  after_results <;> rfl
theorem s0_cinv (c : Dev nD) : W1 m ρ c (Proc.devRef .tc main_v12) = cinvOf (dstOf (m ((c : Thread nD τ).loc main_arg1))) := by
  show StableHlo.after hostOps0 (W0 m ρ c) (Proc.devRef .tc main_v12) = _
  after_results <;> rfl

theorem r0_arg4 (c : Dev nD) : W2 m ρ c (Proc.devRef .tc main_arg4) = W1 m ρ c (Proc.devRef .tc main_arg4) :=
  W2_of_ne m ρ c main_arg4 (by decide)
theorem r0_arg5 (c : Dev nD) : W2 m ρ c (Proc.devRef .tc main_arg5) = W1 m ρ c (Proc.devRef .tc main_arg5) :=
  W2_of_ne m ρ c main_arg5 (by decide)
theorem r0_arg6 (c : Dev nD) : W2 m ρ c (Proc.devRef .tc main_arg6) = W1 m ρ c (Proc.devRef .tc main_arg6) :=
  W2_of_ne m ρ c main_arg6 (by decide)
theorem r0_arg7 (c : Dev nD) : W2 m ρ c (Proc.devRef .tc main_arg7) = W1 m ρ c (Proc.devRef .tc main_arg7) :=
  W2_of_ne m ρ c main_arg7 (by decide)
theorem r0_arg8 (c : Dev nD) : W2 m ρ c (Proc.devRef .tc main_arg8) = W1 m ρ c (Proc.devRef .tc main_arg8) :=
  W2_of_ne m ρ c main_arg8 (by decide)
theorem r0_arg9 (c : Dev nD) : W2 m ρ c (Proc.devRef .tc main_arg9) = W1 m ρ c (Proc.devRef .tc main_arg9) :=
  W2_of_ne m ρ c main_arg9 (by decide)
theorem r0_arg10 (c : Dev nD) : W2 m ρ c (Proc.devRef .tc main_arg10) = W1 m ρ c (Proc.devRef .tc main_arg10) :=
  W2_of_ne m ρ c main_arg10 (by decide)
theorem r0_arg11 (c : Dev nD) : W2 m ρ c (Proc.devRef .tc main_arg11) = W1 m ρ c (Proc.devRef .tc main_arg11) :=
  W2_of_ne m ρ c main_arg11 (by decide)
theorem r0_arg12 (c : Dev nD) : W2 m ρ c (Proc.devRef .tc main_arg12) = W1 m ρ c (Proc.devRef .tc main_arg12) :=
  W2_of_ne m ρ c main_arg12 (by decide)
theorem r0_arg13 (c : Dev nD) : W2 m ρ c (Proc.devRef .tc main_arg13) = W1 m ρ c (Proc.devRef .tc main_arg13) :=
  W2_of_ne m ρ c main_arg13 (by decide)
theorem r0_arg14 (c : Dev nD) : W2 m ρ c (Proc.devRef .tc main_arg14) = W1 m ρ c (Proc.devRef .tc main_arg14) :=
  W2_of_ne m ρ c main_arg14 (by decide)
theorem r0_arg15 (c : Dev nD) : W2 m ρ c (Proc.devRef .tc main_arg15) = W1 m ρ c (Proc.devRef .tc main_arg15) :=
  W2_of_ne m ρ c main_arg15 (by decide)
theorem r0_arg16 (c : Dev nD) : W2 m ρ c (Proc.devRef .tc main_arg16) = W1 m ρ c (Proc.devRef .tc main_arg16) :=
  W2_of_ne m ρ c main_arg16 (by decide)
theorem r0_v1 (c : Dev nD) : W2 m ρ c (Proc.devRef .tc main_v1) = W1 m ρ c (Proc.devRef .tc main_v1) :=
  W2_of_ne m ρ c main_v1 (by decide)
theorem r0_v3 (c : Dev nD) : W2 m ρ c (Proc.devRef .tc main_v3) = W1 m ρ c (Proc.devRef .tc main_v3) :=
  W2_of_ne m ρ c main_v3 (by decide)
theorem r0_v12 (c : Dev nD) : W2 m ρ c (Proc.devRef .tc main_v12) = W1 m ρ c (Proc.devRef .tc main_v12) :=
  W2_of_ne m ρ c main_v12 (by decide)
theorem s1_arg4 (c : Dev nD) : W3 m ρ c (Proc.devRef .tc main_arg4) = W2 m ρ c (Proc.devRef .tc main_arg4) := by
  show StableHlo.after hostOps1 (W2 m ρ c) (Proc.devRef .tc main_arg4) = _
  after_results <;> rfl
theorem s1_arg5 (c : Dev nD) : W3 m ρ c (Proc.devRef .tc main_arg5) = W2 m ρ c (Proc.devRef .tc main_arg5) := by
  show StableHlo.after hostOps1 (W2 m ρ c) (Proc.devRef .tc main_arg5) = _
  after_results <;> rfl
theorem s1_arg6 (c : Dev nD) : W3 m ρ c (Proc.devRef .tc main_arg6) = W2 m ρ c (Proc.devRef .tc main_arg6) := by
  show StableHlo.after hostOps1 (W2 m ρ c) (Proc.devRef .tc main_arg6) = _
  after_results <;> rfl
theorem s1_arg7 (c : Dev nD) : W3 m ρ c (Proc.devRef .tc main_arg7) = W2 m ρ c (Proc.devRef .tc main_arg7) := by
  show StableHlo.after hostOps1 (W2 m ρ c) (Proc.devRef .tc main_arg7) = _
  after_results <;> rfl
theorem s1_arg8 (c : Dev nD) : W3 m ρ c (Proc.devRef .tc main_arg8) = W2 m ρ c (Proc.devRef .tc main_arg8) := by
  show StableHlo.after hostOps1 (W2 m ρ c) (Proc.devRef .tc main_arg8) = _
  after_results <;> rfl
theorem s1_arg9 (c : Dev nD) : W3 m ρ c (Proc.devRef .tc main_arg9) = W2 m ρ c (Proc.devRef .tc main_arg9) := by
  show StableHlo.after hostOps1 (W2 m ρ c) (Proc.devRef .tc main_arg9) = _
  after_results <;> rfl
theorem s1_arg10 (c : Dev nD) : W3 m ρ c (Proc.devRef .tc main_arg10) = W2 m ρ c (Proc.devRef .tc main_arg10) := by
  show StableHlo.after hostOps1 (W2 m ρ c) (Proc.devRef .tc main_arg10) = _
  after_results <;> rfl
theorem s1_arg11 (c : Dev nD) : W3 m ρ c (Proc.devRef .tc main_arg11) = W2 m ρ c (Proc.devRef .tc main_arg11) := by
  show StableHlo.after hostOps1 (W2 m ρ c) (Proc.devRef .tc main_arg11) = _
  after_results <;> rfl
theorem s1_arg12 (c : Dev nD) : W3 m ρ c (Proc.devRef .tc main_arg12) = W2 m ρ c (Proc.devRef .tc main_arg12) := by
  show StableHlo.after hostOps1 (W2 m ρ c) (Proc.devRef .tc main_arg12) = _
  after_results <;> rfl
theorem s1_arg13 (c : Dev nD) : W3 m ρ c (Proc.devRef .tc main_arg13) = W2 m ρ c (Proc.devRef .tc main_arg13) := by
  show StableHlo.after hostOps1 (W2 m ρ c) (Proc.devRef .tc main_arg13) = _
  after_results <;> rfl
theorem s1_arg14 (c : Dev nD) : W3 m ρ c (Proc.devRef .tc main_arg14) = W2 m ρ c (Proc.devRef .tc main_arg14) := by
  show StableHlo.after hostOps1 (W2 m ρ c) (Proc.devRef .tc main_arg14) = _
  after_results <;> rfl
theorem s1_arg15 (c : Dev nD) : W3 m ρ c (Proc.devRef .tc main_arg15) = W2 m ρ c (Proc.devRef .tc main_arg15) := by
  show StableHlo.after hostOps1 (W2 m ρ c) (Proc.devRef .tc main_arg15) = _
  after_results <;> rfl
theorem s1_arg16 (c : Dev nD) : W3 m ρ c (Proc.devRef .tc main_arg16) = W2 m ρ c (Proc.devRef .tc main_arg16) := by
  show StableHlo.after hostOps1 (W2 m ρ c) (Proc.devRef .tc main_arg16) = _
  after_results <;> rfl
theorem s1_v1 (c : Dev nD) : W3 m ρ c (Proc.devRef .tc main_v1) = W2 m ρ c (Proc.devRef .tc main_v1) := by
  show StableHlo.after hostOps1 (W2 m ρ c) (Proc.devRef .tc main_v1) = _
  after_results <;> rfl
theorem s1_v3 (c : Dev nD) : W3 m ρ c (Proc.devRef .tc main_v3) = W2 m ρ c (Proc.devRef .tc main_v3) := by
  show StableHlo.after hostOps1 (W2 m ρ c) (Proc.devRef .tc main_v3) = _
  after_results <;> rfl
theorem s1_v12 (c : Dev nD) : W3 m ρ c (Proc.devRef .tc main_v12) = W2 m ρ c (Proc.devRef .tc main_v12) := by
  show StableHlo.after hostOps1 (W2 m ρ c) (Proc.devRef .tc main_v12) = _
  after_results <;> rfl
theorem s1_v13 (c : Dev nD) : W3 m ρ c (Proc.devRef .tc main_v13) = W2 m ρ c (Proc.devRef .tc main_v13) := by
  show StableHlo.after hostOps1 (W2 m ρ c) (Proc.devRef .tc main_v13) = _
  after_results <;> rfl

set_option maxHeartbeats 4000000 in
/-- Stretch 1 forms the neighbour mean of region 0's output. -/
theorem s1_mean (c : Dev nD) : W3 m ρ c (Proc.devRef .tc main_v25)
    = meanK (W2 m ρ c (Proc.devRef .tc main_v1)) (W2 m ρ c (Proc.devRef .tc main_v3)) (W2 m ρ c (Proc.devRef .tc main_v12)) (W2 m ρ c (Proc.devRef .tc main_v13)) := by
  show StableHlo.after hostOps1 (W2 m ρ c) (Proc.devRef .tc main_v25) = _
  after_results_simp <;> rfl

theorem r1_arg9 (c : Dev nD) : W4 m ρ c (Proc.devRef .tc main_arg9) = W3 m ρ c (Proc.devRef .tc main_arg9) :=
  W4_of_ne m ρ c main_arg9 (by decide)
theorem r1_arg10 (c : Dev nD) : W4 m ρ c (Proc.devRef .tc main_arg10) = W3 m ρ c (Proc.devRef .tc main_arg10) :=
  W4_of_ne m ρ c main_arg10 (by decide)
theorem r1_arg11 (c : Dev nD) : W4 m ρ c (Proc.devRef .tc main_arg11) = W3 m ρ c (Proc.devRef .tc main_arg11) :=
  W4_of_ne m ρ c main_arg11 (by decide)
theorem r1_arg12 (c : Dev nD) : W4 m ρ c (Proc.devRef .tc main_arg12) = W3 m ρ c (Proc.devRef .tc main_arg12) :=
  W4_of_ne m ρ c main_arg12 (by decide)
theorem r1_arg13 (c : Dev nD) : W4 m ρ c (Proc.devRef .tc main_arg13) = W3 m ρ c (Proc.devRef .tc main_arg13) :=
  W4_of_ne m ρ c main_arg13 (by decide)
theorem r1_arg14 (c : Dev nD) : W4 m ρ c (Proc.devRef .tc main_arg14) = W3 m ρ c (Proc.devRef .tc main_arg14) :=
  W4_of_ne m ρ c main_arg14 (by decide)
theorem r1_arg15 (c : Dev nD) : W4 m ρ c (Proc.devRef .tc main_arg15) = W3 m ρ c (Proc.devRef .tc main_arg15) :=
  W4_of_ne m ρ c main_arg15 (by decide)
theorem r1_arg16 (c : Dev nD) : W4 m ρ c (Proc.devRef .tc main_arg16) = W3 m ρ c (Proc.devRef .tc main_arg16) :=
  W4_of_ne m ρ c main_arg16 (by decide)
theorem r1_v1 (c : Dev nD) : W4 m ρ c (Proc.devRef .tc main_v1) = W3 m ρ c (Proc.devRef .tc main_v1) :=
  W4_of_ne m ρ c main_v1 (by decide)
theorem r1_v3 (c : Dev nD) : W4 m ρ c (Proc.devRef .tc main_v3) = W3 m ρ c (Proc.devRef .tc main_v3) :=
  W4_of_ne m ρ c main_v3 (by decide)
theorem r1_v12 (c : Dev nD) : W4 m ρ c (Proc.devRef .tc main_v12) = W3 m ρ c (Proc.devRef .tc main_v12) :=
  W4_of_ne m ρ c main_v12 (by decide)
theorem s2_arg9 (c : Dev nD) : W5 m ρ c (Proc.devRef .tc main_arg9) = W4 m ρ c (Proc.devRef .tc main_arg9) := by
  show StableHlo.after hostOps2 (W4 m ρ c) (Proc.devRef .tc main_arg9) = _
  after_results <;> rfl
theorem s2_arg10 (c : Dev nD) : W5 m ρ c (Proc.devRef .tc main_arg10) = W4 m ρ c (Proc.devRef .tc main_arg10) := by
  show StableHlo.after hostOps2 (W4 m ρ c) (Proc.devRef .tc main_arg10) = _
  after_results <;> rfl
theorem s2_arg11 (c : Dev nD) : W5 m ρ c (Proc.devRef .tc main_arg11) = W4 m ρ c (Proc.devRef .tc main_arg11) := by
  show StableHlo.after hostOps2 (W4 m ρ c) (Proc.devRef .tc main_arg11) = _
  after_results <;> rfl
theorem s2_arg12 (c : Dev nD) : W5 m ρ c (Proc.devRef .tc main_arg12) = W4 m ρ c (Proc.devRef .tc main_arg12) := by
  show StableHlo.after hostOps2 (W4 m ρ c) (Proc.devRef .tc main_arg12) = _
  after_results <;> rfl
theorem s2_arg13 (c : Dev nD) : W5 m ρ c (Proc.devRef .tc main_arg13) = W4 m ρ c (Proc.devRef .tc main_arg13) := by
  show StableHlo.after hostOps2 (W4 m ρ c) (Proc.devRef .tc main_arg13) = _
  after_results <;> rfl
theorem s2_arg14 (c : Dev nD) : W5 m ρ c (Proc.devRef .tc main_arg14) = W4 m ρ c (Proc.devRef .tc main_arg14) := by
  show StableHlo.after hostOps2 (W4 m ρ c) (Proc.devRef .tc main_arg14) = _
  after_results <;> rfl
theorem s2_arg15 (c : Dev nD) : W5 m ρ c (Proc.devRef .tc main_arg15) = W4 m ρ c (Proc.devRef .tc main_arg15) := by
  show StableHlo.after hostOps2 (W4 m ρ c) (Proc.devRef .tc main_arg15) = _
  after_results <;> rfl
theorem s2_arg16 (c : Dev nD) : W5 m ρ c (Proc.devRef .tc main_arg16) = W4 m ρ c (Proc.devRef .tc main_arg16) := by
  show StableHlo.after hostOps2 (W4 m ρ c) (Proc.devRef .tc main_arg16) = _
  after_results <;> rfl
theorem s2_v1 (c : Dev nD) : W5 m ρ c (Proc.devRef .tc main_v1) = W4 m ρ c (Proc.devRef .tc main_v1) := by
  show StableHlo.after hostOps2 (W4 m ρ c) (Proc.devRef .tc main_v1) = _
  after_results <;> rfl
theorem s2_v3 (c : Dev nD) : W5 m ρ c (Proc.devRef .tc main_v3) = W4 m ρ c (Proc.devRef .tc main_v3) := by
  show StableHlo.after hostOps2 (W4 m ρ c) (Proc.devRef .tc main_v3) = _
  after_results <;> rfl
theorem s2_v12 (c : Dev nD) : W5 m ρ c (Proc.devRef .tc main_v12) = W4 m ρ c (Proc.devRef .tc main_v12) := by
  show StableHlo.after hostOps2 (W4 m ρ c) (Proc.devRef .tc main_v12) = _
  after_results <;> rfl
theorem s2_v26 (c : Dev nD) : W5 m ρ c (Proc.devRef .tc main_v26) = W4 m ρ c (Proc.devRef .tc main_v26) := by
  show StableHlo.after hostOps2 (W4 m ρ c) (Proc.devRef .tc main_v26) = _
  after_results <;> rfl

set_option maxHeartbeats 4000000 in
/-- Stretch 2 forms the neighbour mean of region 1's output. -/
theorem s2_mean (c : Dev nD) : W5 m ρ c (Proc.devRef .tc main_v38)
    = meanK (W4 m ρ c (Proc.devRef .tc main_v1)) (W4 m ρ c (Proc.devRef .tc main_v3)) (W4 m ρ c (Proc.devRef .tc main_v12)) (W4 m ρ c (Proc.devRef .tc main_v26)) := by
  show StableHlo.after hostOps2 (W4 m ρ c) (Proc.devRef .tc main_v38) = _
  after_results_simp <;> rfl

theorem r2_arg14 (c : Dev nD) : W6 m ρ c (Proc.devRef .tc main_arg14) = W5 m ρ c (Proc.devRef .tc main_arg14) :=
  W6_of_ne m ρ c main_arg14 (by decide)
theorem r2_arg15 (c : Dev nD) : W6 m ρ c (Proc.devRef .tc main_arg15) = W5 m ρ c (Proc.devRef .tc main_arg15) :=
  W6_of_ne m ρ c main_arg15 (by decide)
theorem r2_arg16 (c : Dev nD) : W6 m ρ c (Proc.devRef .tc main_arg16) = W5 m ρ c (Proc.devRef .tc main_arg16) :=
  W6_of_ne m ρ c main_arg16 (by decide)
theorem r2_v1 (c : Dev nD) : W6 m ρ c (Proc.devRef .tc main_v1) = W5 m ρ c (Proc.devRef .tc main_v1) :=
  W6_of_ne m ρ c main_v1 (by decide)
theorem r2_v3 (c : Dev nD) : W6 m ρ c (Proc.devRef .tc main_v3) = W5 m ρ c (Proc.devRef .tc main_v3) :=
  W6_of_ne m ρ c main_v3 (by decide)
theorem r2_v12 (c : Dev nD) : W6 m ρ c (Proc.devRef .tc main_v12) = W5 m ρ c (Proc.devRef .tc main_v12) :=
  W6_of_ne m ρ c main_v12 (by decide)
theorem s3_arg14 (c : Dev nD) : W7 m ρ c (Proc.devRef .tc main_arg14) = W6 m ρ c (Proc.devRef .tc main_arg14) := by
  show StableHlo.after hostOps3 (W6 m ρ c) (Proc.devRef .tc main_arg14) = _
  after_results <;> rfl
theorem s3_arg15 (c : Dev nD) : W7 m ρ c (Proc.devRef .tc main_arg15) = W6 m ρ c (Proc.devRef .tc main_arg15) := by
  show StableHlo.after hostOps3 (W6 m ρ c) (Proc.devRef .tc main_arg15) = _
  after_results <;> rfl
theorem s3_arg16 (c : Dev nD) : W7 m ρ c (Proc.devRef .tc main_arg16) = W6 m ρ c (Proc.devRef .tc main_arg16) := by
  show StableHlo.after hostOps3 (W6 m ρ c) (Proc.devRef .tc main_arg16) = _
  after_results <;> rfl
theorem s3_v1 (c : Dev nD) : W7 m ρ c (Proc.devRef .tc main_v1) = W6 m ρ c (Proc.devRef .tc main_v1) := by
  show StableHlo.after hostOps3 (W6 m ρ c) (Proc.devRef .tc main_v1) = _
  after_results <;> rfl
theorem s3_v3 (c : Dev nD) : W7 m ρ c (Proc.devRef .tc main_v3) = W6 m ρ c (Proc.devRef .tc main_v3) := by
  show StableHlo.after hostOps3 (W6 m ρ c) (Proc.devRef .tc main_v3) = _
  after_results <;> rfl
theorem s3_v12 (c : Dev nD) : W7 m ρ c (Proc.devRef .tc main_v12) = W6 m ρ c (Proc.devRef .tc main_v12) := by
  show StableHlo.after hostOps3 (W6 m ρ c) (Proc.devRef .tc main_v12) = _
  after_results <;> rfl
theorem s3_v39 (c : Dev nD) : W7 m ρ c (Proc.devRef .tc main_v39) = W6 m ρ c (Proc.devRef .tc main_v39) := by
  show StableHlo.after hostOps3 (W6 m ρ c) (Proc.devRef .tc main_v39) = _
  after_results <;> rfl

set_option maxHeartbeats 4000000 in
/-- Stretch 3 forms the neighbour mean of region 2's output. -/
theorem s3_mean (c : Dev nD) : W7 m ρ c (Proc.devRef .tc main_v51)
    = meanK (W6 m ρ c (Proc.devRef .tc main_v1)) (W6 m ρ c (Proc.devRef .tc main_v3)) (W6 m ρ c (Proc.devRef .tc main_v12)) (W6 m ρ c (Proc.devRef .tc main_v39)) := by
  show StableHlo.after hostOps3 (W6 m ρ c) (Proc.devRef .tc main_v51) = _
  after_results_simp <;> rfl

/-! ## The edge arrays and the arguments at every boundary -/

theorem W2_src (c : Dev nD) : W2 m ρ c (Proc.devRef .tc main_v1) = srcOf (m ((c : Thread nD τ).loc main_arg1)) :=
  (r0_v1 m ρ c).trans (s0_src m ρ c)
theorem W2_dst (c : Dev nD) : W2 m ρ c (Proc.devRef .tc main_v3) = dstOf (m ((c : Thread nD τ).loc main_arg1)) :=
  (r0_v3 m ρ c).trans (s0_dst m ρ c)
theorem W2_cinv (c : Dev nD) : W2 m ρ c (Proc.devRef .tc main_v12) = cinvOf (dstOf (m ((c : Thread nD τ).loc main_arg1))) :=
  (r0_v12 m ρ c).trans (s0_cinv m ρ c)
theorem W4_src (c : Dev nD) : W4 m ρ c (Proc.devRef .tc main_v1) = srcOf (m ((c : Thread nD τ).loc main_arg1)) :=
  (r1_v1 m ρ c).trans ((s1_v1 m ρ c).trans ((r0_v1 m ρ c).trans (s0_src m ρ c)))
theorem W4_dst (c : Dev nD) : W4 m ρ c (Proc.devRef .tc main_v3) = dstOf (m ((c : Thread nD τ).loc main_arg1)) :=
  (r1_v3 m ρ c).trans ((s1_v3 m ρ c).trans ((r0_v3 m ρ c).trans (s0_dst m ρ c)))
theorem W4_cinv (c : Dev nD) : W4 m ρ c (Proc.devRef .tc main_v12) = cinvOf (dstOf (m ((c : Thread nD τ).loc main_arg1))) :=
  (r1_v12 m ρ c).trans ((s1_v12 m ρ c).trans ((r0_v12 m ρ c).trans (s0_cinv m ρ c)))
theorem W6_src (c : Dev nD) : W6 m ρ c (Proc.devRef .tc main_v1) = srcOf (m ((c : Thread nD τ).loc main_arg1)) :=
  (r2_v1 m ρ c).trans ((s2_v1 m ρ c).trans ((r1_v1 m ρ c).trans ((s1_v1 m ρ c).trans ((r0_v1 m ρ c).trans (s0_src m ρ c)))))
theorem W6_dst (c : Dev nD) : W6 m ρ c (Proc.devRef .tc main_v3) = dstOf (m ((c : Thread nD τ).loc main_arg1)) :=
  (r2_v3 m ρ c).trans ((s2_v3 m ρ c).trans ((r1_v3 m ρ c).trans ((s1_v3 m ρ c).trans ((r0_v3 m ρ c).trans (s0_dst m ρ c)))))
theorem W6_cinv (c : Dev nD) : W6 m ρ c (Proc.devRef .tc main_v12) = cinvOf (dstOf (m ((c : Thread nD τ).loc main_arg1))) :=
  (r2_v12 m ρ c).trans ((s2_v12 m ρ c).trans ((r1_v12 m ρ c).trans ((s1_v12 m ρ c).trans ((r0_v12 m ρ c).trans (s0_cinv m ρ c)))))
theorem W1_arg0 (c : Dev nD) : W1 m ρ c (Proc.devRef .tc main_arg0) = m ((c : Thread nD τ).loc main_arg0) :=
  (s0_arg0 m ρ c).trans (W0_eq m ρ c main_arg0)
theorem W1_arg2 (c : Dev nD) : W1 m ρ c (Proc.devRef .tc main_arg2) = m ((c : Thread nD τ).loc main_arg2) :=
  (s0_arg2 m ρ c).trans (W0_eq m ρ c main_arg2)
theorem W1_arg3 (c : Dev nD) : W1 m ρ c (Proc.devRef .tc main_arg3) = m ((c : Thread nD τ).loc main_arg3) :=
  (s0_arg3 m ρ c).trans (W0_eq m ρ c main_arg3)
theorem W3_arg4 (c : Dev nD) : W3 m ρ c (Proc.devRef .tc main_arg4) = m ((c : Thread nD τ).loc main_arg4) :=
  (s1_arg4 m ρ c).trans ((r0_arg4 m ρ c).trans ((s0_arg4 m ρ c).trans (W0_eq m ρ c main_arg4)))
theorem W3_arg5 (c : Dev nD) : W3 m ρ c (Proc.devRef .tc main_arg5) = m ((c : Thread nD τ).loc main_arg5) :=
  (s1_arg5 m ρ c).trans ((r0_arg5 m ρ c).trans ((s0_arg5 m ρ c).trans (W0_eq m ρ c main_arg5)))
theorem W3_arg6 (c : Dev nD) : W3 m ρ c (Proc.devRef .tc main_arg6) = m ((c : Thread nD τ).loc main_arg6) :=
  (s1_arg6 m ρ c).trans ((r0_arg6 m ρ c).trans ((s0_arg6 m ρ c).trans (W0_eq m ρ c main_arg6)))
theorem W3_arg7 (c : Dev nD) : W3 m ρ c (Proc.devRef .tc main_arg7) = m ((c : Thread nD τ).loc main_arg7) :=
  (s1_arg7 m ρ c).trans ((r0_arg7 m ρ c).trans ((s0_arg7 m ρ c).trans (W0_eq m ρ c main_arg7)))
theorem W3_arg8 (c : Dev nD) : W3 m ρ c (Proc.devRef .tc main_arg8) = m ((c : Thread nD τ).loc main_arg8) :=
  (s1_arg8 m ρ c).trans ((r0_arg8 m ρ c).trans ((s0_arg8 m ρ c).trans (W0_eq m ρ c main_arg8)))
theorem W5_arg9 (c : Dev nD) : W5 m ρ c (Proc.devRef .tc main_arg9) = m ((c : Thread nD τ).loc main_arg9) :=
  (s2_arg9 m ρ c).trans ((r1_arg9 m ρ c).trans ((s1_arg9 m ρ c).trans ((r0_arg9 m ρ c).trans ((s0_arg9 m ρ c).trans (W0_eq m ρ c main_arg9)))))
theorem W5_arg10 (c : Dev nD) : W5 m ρ c (Proc.devRef .tc main_arg10) = m ((c : Thread nD τ).loc main_arg10) :=
  (s2_arg10 m ρ c).trans ((r1_arg10 m ρ c).trans ((s1_arg10 m ρ c).trans ((r0_arg10 m ρ c).trans ((s0_arg10 m ρ c).trans (W0_eq m ρ c main_arg10)))))
theorem W5_arg11 (c : Dev nD) : W5 m ρ c (Proc.devRef .tc main_arg11) = m ((c : Thread nD τ).loc main_arg11) :=
  (s2_arg11 m ρ c).trans ((r1_arg11 m ρ c).trans ((s1_arg11 m ρ c).trans ((r0_arg11 m ρ c).trans ((s0_arg11 m ρ c).trans (W0_eq m ρ c main_arg11)))))
theorem W5_arg12 (c : Dev nD) : W5 m ρ c (Proc.devRef .tc main_arg12) = m ((c : Thread nD τ).loc main_arg12) :=
  (s2_arg12 m ρ c).trans ((r1_arg12 m ρ c).trans ((s1_arg12 m ρ c).trans ((r0_arg12 m ρ c).trans ((s0_arg12 m ρ c).trans (W0_eq m ρ c main_arg12)))))
theorem W5_arg13 (c : Dev nD) : W5 m ρ c (Proc.devRef .tc main_arg13) = m ((c : Thread nD τ).loc main_arg13) :=
  (s2_arg13 m ρ c).trans ((r1_arg13 m ρ c).trans ((s1_arg13 m ρ c).trans ((r0_arg13 m ρ c).trans ((s0_arg13 m ρ c).trans (W0_eq m ρ c main_arg13)))))
theorem W7_arg14 (c : Dev nD) : W7 m ρ c (Proc.devRef .tc main_arg14) = m ((c : Thread nD τ).loc main_arg14) :=
  (s3_arg14 m ρ c).trans ((r2_arg14 m ρ c).trans ((s2_arg14 m ρ c).trans ((r1_arg14 m ρ c).trans ((s1_arg14 m ρ c).trans ((r0_arg14 m ρ c).trans ((s0_arg14 m ρ c).trans (W0_eq m ρ c main_arg14)))))))
theorem W7_arg15 (c : Dev nD) : W7 m ρ c (Proc.devRef .tc main_arg15) = m ((c : Thread nD τ).loc main_arg15) :=
  (s3_arg15 m ρ c).trans ((r2_arg15 m ρ c).trans ((s2_arg15 m ρ c).trans ((r1_arg15 m ρ c).trans ((s1_arg15 m ρ c).trans ((r0_arg15 m ρ c).trans ((s0_arg15 m ρ c).trans (W0_eq m ρ c main_arg15)))))))
theorem W7_arg16 (c : Dev nD) : W7 m ρ c (Proc.devRef .tc main_arg16) = m ((c : Thread nD τ).loc main_arg16) :=
  (s3_arg16 m ρ c).trans ((r2_arg16 m ρ c).trans ((s2_arg16 m ρ c).trans ((r1_arg16 m ρ c).trans ((s1_arg16 m ρ c).trans ((r0_arg16 m ρ c).trans ((s0_arg16 m ρ c).trans (W0_eq m ρ c main_arg16)))))))

/-! ## The four regions' outputs, composed -/

/-- After region 0: the projected node rows. -/
theorem out0 (c : Dev nD) : W2 m ρ c (Proc.devRef .tc main_v13) = projArr (m ((c : Thread nD τ).loc main_arg0)) (m ((c : Thread nD τ).loc main_arg2)) (m ((c : Thread nD τ).loc main_arg3)) := by
  refine (W2_arr m ρ c 3).trans ((BlockValue.final0 (V1 m ρ) c).trans ?_)
  show projArr (W1 m ρ c (Proc.devRef .tc main_arg0)) (W1 m ρ c (Proc.devRef .tc main_arg2)) (W1 m ρ c (Proc.devRef .tc main_arg3)) = _
  rw [W1_arg0, W1_arg2, W1_arg3]

/-- After region 1: the first layer applied to the projected rows and their neighbour mean. -/
theorem out1 (c : Dev nD) : W4 m ρ c (Proc.devRef .tc main_v26) = layerArr (meanK (srcOf (m ((c : Thread nD τ).loc main_arg1))) (dstOf (m ((c : Thread nD τ).loc main_arg1))) (cinvOf (dstOf (m ((c : Thread nD τ).loc main_arg1)))) (projArr (m ((c : Thread nD τ).loc main_arg0)) (m ((c : Thread nD τ).loc main_arg2)) (m ((c : Thread nD τ).loc main_arg3)))) (projArr (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 7).trans ((BlockValue.final1 (V3 m ρ) c).trans ?_)
  show layerArr (W3 m ρ c (Proc.devRef .tc main_v25)) (W3 m ρ c (Proc.devRef .tc main_v13)) (W3 m ρ c (Proc.devRef .tc main_arg4)) (W3 m ρ c (Proc.devRef .tc main_arg5)) (W3 m ρ c (Proc.devRef .tc main_arg6)) (W3 m ρ c (Proc.devRef .tc main_arg7)) (W3 m ρ c (Proc.devRef .tc main_arg8)) = _
  rw [s1_mean, s1_v13, W2_src, W2_dst, W2_cinv, out0, W3_arg4, W3_arg5, W3_arg6, W3_arg7, W3_arg8]

/-- After region 2: the second layer. -/
theorem out2 (c : Dev nD) : W6 m ρ c (Proc.devRef .tc main_v39) = layerArr (meanK (srcOf (m ((c : Thread nD τ).loc main_arg1))) (dstOf (m ((c : Thread nD τ).loc main_arg1))) (cinvOf (dstOf (m ((c : Thread nD τ).loc main_arg1)))) (layerArr (meanK (srcOf (m ((c : Thread nD τ).loc main_arg1))) (dstOf (m ((c : Thread nD τ).loc main_arg1))) (cinvOf (dstOf (m ((c : Thread nD τ).loc main_arg1)))) (projArr (m ((c : Thread nD τ).loc main_arg0)) (m ((c : Thread nD τ).loc main_arg2)) (m ((c : Thread nD τ).loc main_arg3)))) (projArr (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)))) (layerArr (meanK (srcOf (m ((c : Thread nD τ).loc main_arg1))) (dstOf (m ((c : Thread nD τ).loc main_arg1))) (cinvOf (dstOf (m ((c : Thread nD τ).loc main_arg1)))) (projArr (m ((c : Thread nD τ).loc main_arg0)) (m ((c : Thread nD τ).loc main_arg2)) (m ((c : Thread nD τ).loc main_arg3)))) (projArr (m ((c : Thread nD τ).loc main_arg0)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 7).trans ((BlockValue.final2 (V5 m ρ) c).trans ?_)
  show layerArr (W5 m ρ c (Proc.devRef .tc main_v38)) (W5 m ρ c (Proc.devRef .tc main_v26)) (W5 m ρ c (Proc.devRef .tc main_arg9)) (W5 m ρ c (Proc.devRef .tc main_arg10)) (W5 m ρ c (Proc.devRef .tc main_arg11)) (W5 m ρ c (Proc.devRef .tc main_arg12)) (W5 m ρ c (Proc.devRef .tc main_arg13)) = _
  rw [s2_mean, s2_v26, W4_src, W4_dst, W4_cinv, out1, W5_arg9, W5_arg10, W5_arg11, W5_arg12, W5_arg13]

/-- The program's result buffer at the last boundary: the whole network of the launch arguments. -/
theorem result (c : Dev nD) : W8 m ρ c (Proc.devRef .tc main_v52)
    = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W8_arr m ρ c 5).trans ((BlockValue.final3 (V7 m ρ) c).trans ?_)
  show finArr (W7 m ρ c (Proc.devRef .tc main_v51)) (W7 m ρ c (Proc.devRef .tc main_v39)) (W7 m ρ c (Proc.devRef .tc main_arg14)) (W7 m ρ c (Proc.devRef .tc main_arg15)) (W7 m ρ c (Proc.devRef .tc main_arg16)) = _
  rw [s3_mean, s3_v39, W6_src, W6_dst, W6_cinv, out2, W7_arg14, W7_arg15, W7_arg16]
  rfl

end Cert.KernelIdeal.HostValue

end
-- ==== Proof.RefStages.lean ====
/-
  The reference program's dense stages, read one entry at a time on the extended reals.

  Between the neighbour averages (which gather and scatter along the edge list, and are kept here as arrays that are
  not looked into) the reference program is dense arithmetic on rows: the projection x ↦ max (x·W + b) 0 of the node
  features, two layers that form h = (m·Wl + bl) + x·Wr from the row m of neighbour means and the node's own row x,
  normalise h over its 64 entries, apply gain and offset, clip at 0 and add x back, and a last layer that stops at h
  with 16 columns.  On the extended reals a contraction is the plain sum over the contracted index, a row reduction
  is its initial value (the word of 0) plus the plain sum of the row, and a broadcast reads its operand at the
  coordinates it keeps.  Each theorem below takes one entry (row `p`, column `q`) of a stage's result, reads it back
  through the stage's operations to the entries of the stage's inputs, and finds the row function of the
  specification.
-/
import proofs.«177046_j44306882625629_1_alg».proof.Proof.RefReadP
import proofs.«177046_j44306882625629_1_alg».proof.Proof.Spec

noncomputable section

namespace Cert.RefStages

open Cert.ReferenceIdeal Cert.ReferenceIdeal.Gen Cert.ReferenceIdeal.Read Cert.Spec Idealize.ShloMosaic Idealize.ShloMosaic.ValueIdx

variable (x0 : (⟨S100000x32, .f32⟩ : BufTy).Contents (Elt Ideal))
  (x1 : (⟨S2x1600000, .i32⟩ : BufTy).Contents (Elt Ideal))
  (x2 : (⟨S32x64, .f32⟩ : BufTy).Contents (Elt Ideal))
  (x3 : (⟨S64, .f32⟩ : BufTy).Contents (Elt Ideal))
  (x4 : (⟨S64x64, .f32⟩ : BufTy).Contents (Elt Ideal))
  (x5 : (⟨S64, .f32⟩ : BufTy).Contents (Elt Ideal))
  (x6 : (⟨S64x64, .f32⟩ : BufTy).Contents (Elt Ideal))
  (x7 : (⟨S64, .f32⟩ : BufTy).Contents (Elt Ideal))
  (x8 : (⟨S64, .f32⟩ : BufTy).Contents (Elt Ideal))
  (x9 : (⟨S64x64, .f32⟩ : BufTy).Contents (Elt Ideal))
  (x10 : (⟨S64, .f32⟩ : BufTy).Contents (Elt Ideal))
  (x11 : (⟨S64x64, .f32⟩ : BufTy).Contents (Elt Ideal))
  (x12 : (⟨S64, .f32⟩ : BufTy).Contents (Elt Ideal))
  (x13 : (⟨S64, .f32⟩ : BufTy).Contents (Elt Ideal))
  (x14 : (⟨S64x16, .f32⟩ : BufTy).Contents (Elt Ideal))
  (x15 : (⟨S16, .f32⟩ : BufTy).Contents (Elt Ideal))
  (x16 : (⟨S64x16, .f32⟩ : BufTy).Contents (Elt Ideal))

/-! ## The projection -/

/-- The projection at row `p` and column `q`: the contraction runs over the 32 features of the row, the bias is read
    at the column, and the clip is against the word of 0. -/
theorem v4_eq :
    val_main_v4 (F := Ideal) x0 x2 x3 = projArr x0 x2 x3 := by
  funext i
  obtain ⟨p, q, rfl⟩ : ∃ (p : Fin 100000) (q : Fin 64), i = ix2 p q := ⟨i 0, i 1, eq_ix2 i⟩
  have e1 : ∀ k : Fin 32, lidx_main_v0 (ix2 p q) k = ix2 p k := fun k => funext fun a => Fin.ext (by match a with | ⟨0, _⟩ => rfl | ⟨1, _⟩ => rfl)
  have e2 : ∀ k : Fin 32, ridx_main_v0 (ix2 p q) k = ix2 k q := fun k => funext fun a => Fin.ext (by match a with | ⟨0, _⟩ => rfl | ⟨1, _⟩ => rfl)
  have e3 : idx_main_v1 (idx_main_v2 (ix2 p q)) = ix1 q := funext fun a => Fin.ext (by match a with | ⟨0, _⟩ => rfl)
  rw [val_main_v4_apply, val_main_v3_apply, val_main_v0_apply, val_main_v2_apply, val_main_v1_apply,
    val_main_call0_v0_apply, val_main_call0_cst_apply]
  simp only [e1, e2, e3, Ideal.addf_def, Ideal.maximumf_def, Ideal.ofBits_def, projArr_apply, projRow, rowOf]

/-! ## The first layer -/

/-- The layer's linear part at row `p` and column `d`: the two contractions run over the 64 entries of the row of
    neighbour means and of the node's own row, and the bias is read at the column. -/
theorem h0_at (p : Fin 100000) (d : Fin 64) :
    val_main_v33 (F := Ideal) x0 x1 x2 x3 x4 x5 x6 (ix2 p d) =
      hRow (rowOf (val_main_v27 (F := Ideal) x0 x1 x2 x3) p) (rowOf (val_main_v4 (F := Ideal) x0 x2 x3) p) x4 x5 x6 d := by
  have e1 : ∀ k : Fin 64, lidx_main_v28 (ix2 p d) k = ix2 p k := fun k => funext fun a => Fin.ext (by match a with | ⟨0, _⟩ => rfl | ⟨1, _⟩ => rfl)
  have e2 : ∀ k : Fin 64, ridx_main_v28 (ix2 p d) k = ix2 k d := fun k => funext fun a => Fin.ext (by match a with | ⟨0, _⟩ => rfl | ⟨1, _⟩ => rfl)
  have e3 : idx_main_v29 (idx_main_v30 (ix2 p d)) = ix1 d := funext fun a => Fin.ext (by match a with | ⟨0, _⟩ => rfl)
  have e4 : ∀ k : Fin 64, lidx_main_v32 (ix2 p d) k = ix2 p k := fun k => funext fun a => Fin.ext (by match a with | ⟨0, _⟩ => rfl | ⟨1, _⟩ => rfl)
  have e5 : ∀ k : Fin 64, ridx_main_v32 (ix2 p d) k = ix2 k d := fun k => funext fun a => Fin.ext (by match a with | ⟨0, _⟩ => rfl | ⟨1, _⟩ => rfl)
  rw [val_main_v33_apply, val_main_v31_apply, val_main_v28_apply, val_main_v30_apply, val_main_v29_apply, val_main_v32_apply]
  generalize val_main_v27 (F := Ideal) x0 x1 x2 x3 = M
  generalize val_main_v4 (F := Ideal) x0 x2 x3 = X
  simp only [e1, e2, e3, e4, e5, Ideal.addf_def, hRow, rowOf]

/-- The mean of row `p` of the linear part: the sum of its 64 entries (the sum starts from the word of 0) over 64. -/
theorem mu0_at (p : Fin 100000) :
    val_main_v37 (F := Ideal) x0 x1 x2 x3 x4 x5 x6 (ix2 p (0 : Fin 1)) =
      muRow (fun d => val_main_v33 (F := Ideal) x0 x1 x2 x3 x4 x5 x6 (ix2 p d)) := by
  have e1 : idx_main_v35 (ix2 p (0 : Fin 1)) = ix1 p := funext fun a => Fin.ext (by match a with | ⟨0, _⟩ => rfl)
  have e2 : ∀ k : Fin 64, idx_main_v34 (ix1 p) k = ix2 p k := fun k => funext fun a => Fin.ext (by match a with | ⟨0, _⟩ => rfl | ⟨1, _⟩ => rfl)
  rw [val_main_v37_apply, val_main_v35_apply, val_main_v34_apply, val_main_cst_4_apply, val_main_v36_apply, val_main_cst_5_apply]
  generalize val_main_v33 (F := Ideal) x0 x1 x2 x3 x4 x5 x6 = H
  simp only [e1, e2, Ideal.hostDivf_def, Ideal.ofBits_def, Ideal.ofBits_zero_f32, zero_add, muRow]

/-- One entry's squared deviation from its row's mean. -/
theorem sq0_at (p : Fin 100000) (k : Fin 64) :
    val_main_v40 (F := Ideal) x0 x1 x2 x3 x4 x5 x6 (ix2 p k) =
      (val_main_v33 (F := Ideal) x0 x1 x2 x3 x4 x5 x6 (ix2 p k) - muRow (fun d => val_main_v33 (F := Ideal) x0 x1 x2 x3 x4 x5 x6 (ix2 p d))) *
        (val_main_v33 (F := Ideal) x0 x1 x2 x3 x4 x5 x6 (ix2 p k) - muRow (fun d => val_main_v33 (F := Ideal) x0 x1 x2 x3 x4 x5 x6 (ix2 p d))) := by
  have e3 : idx_main_v38 (ix2 p k) = ix2 p (0 : Fin 1) := funext fun a => Fin.ext (by match a with | ⟨0, _⟩ => rfl | ⟨1, _⟩ => rfl)
  rw [val_main_v40_apply, val_main_v39_apply, val_main_v38_apply, e3, mu0_at]
  generalize val_main_v33 (F := Ideal) x0 x1 x2 x3 x4 x5 x6 = H
  simp only [Ideal.mulf_def, Ideal.subf_def]

/-- The variance of row `p`: every entry's deviation from the row mean, squared, summed over the 64 entries, over 64. -/
theorem var0_at (p : Fin 100000) :
    val_main_v44 (F := Ideal) x0 x1 x2 x3 x4 x5 x6 (ix2 p (0 : Fin 1)) =
      varRow (fun d => val_main_v33 (F := Ideal) x0 x1 x2 x3 x4 x5 x6 (ix2 p d)) := by
  have e1 : idx_main_v42 (ix2 p (0 : Fin 1)) = ix1 p := funext fun a => Fin.ext (by match a with | ⟨0, _⟩ => rfl)
  have e2 : ∀ k : Fin 64, idx_main_v41 (ix1 p) k = ix2 p k := fun k => funext fun a => Fin.ext (by match a with | ⟨0, _⟩ => rfl | ⟨1, _⟩ => rfl)
  rw [val_main_v44_apply, val_main_v42_apply, val_main_v41_apply, val_main_cst_6_apply, val_main_v43_apply, val_main_cst_7_apply, e1]
  simp only [e2, sq0_at]
  generalize val_main_v33 (F := Ideal) x0 x1 x2 x3 x4 x5 x6 = H
  simp only [Ideal.hostDivf_def, Ideal.ofBits_def, Ideal.ofBits_zero_f32, zero_add, varRow]

/-- The whole layer: each entry of the linear part minus its row's mean, times the reciprocal square root of the row's
    variance plus ε, times the gain plus the offset, clipped below at 0, plus the node's own entry. -/
theorem v59_eq :
    val_main_v59 (F := Ideal) x0 x1 x2 x3 x4 x5 x6 x7 x8 =
      layerArr (val_main_v27 (F := Ideal) x0 x1 x2 x3) (val_main_v4 (F := Ideal) x0 x2 x3) x4 x5 x6 x7 x8 := by
  funext i
  obtain ⟨p, q, rfl⟩ : ∃ (p : Fin 100000) (q : Fin 64), i = ix2 p q := ⟨i 0, i 1, eq_ix2 i⟩
  have e1 : idx_main_v45 (ix2 p q) = ix2 p (0 : Fin 1) := funext fun a => Fin.ext (by match a with | ⟨0, _⟩ => rfl | ⟨1, _⟩ => rfl)
  have e2 : idx_main_v50 (ix2 p q) = ix2 p (0 : Fin 1) := funext fun a => Fin.ext (by match a with | ⟨0, _⟩ => rfl | ⟨1, _⟩ => rfl)
  have e3 : idx_main_v52 (idx_main_v53 (ix2 p q)) = ix1 q := funext fun a => Fin.ext (by match a with | ⟨0, _⟩ => rfl)
  have e4 : idx_main_v55 (idx_main_v56 (ix2 p q)) = ix1 q := funext fun a => Fin.ext (by match a with | ⟨0, _⟩ => rfl)
  rw [val_main_v59_apply, val_main_v58_apply, val_main_v57_apply, val_main_v54_apply, val_main_v51_apply, val_main_v46_apply, val_main_v45_apply, val_main_v50_apply,
    val_main_v49_apply, val_main_v48_apply, val_main_v47_apply, val_main_cst_8_apply, val_main_v53_apply, val_main_v52_apply, val_main_v56_apply,
    val_main_v55_apply, val_main_call1_v0_apply, val_main_call1_cst_apply]
  simp only [e1, e2, e3, e4, mu0_at, var0_at, h0_at]
  generalize val_main_v27 (F := Ideal) x0 x1 x2 x3 = M
  generalize val_main_v4 (F := Ideal) x0 x2 x3 = X
  simp only [Ideal.addf_def, Ideal.mulf_def, Ideal.subf_def, Ideal.maximumf_def, Ideal.hostUnary_rsqrt_def, Ideal.ofBits_def,
    layerArr_apply, layerRow, lnRow, rowOf]

/-! ## The second layer -/

/-- The layer's linear part at row `p` and column `d`: the two contractions run over the 64 entries of the row of
    neighbour means and of the node's own row, and the bias is read at the column. -/
theorem h1_at (p : Fin 100000) (d : Fin 64) :
    val_main_v88 (F := Ideal) x0 x1 x2 x3 x4 x5 x6 x7 x8 x9 x10 x11 (ix2 p d) =
      hRow (rowOf (val_main_v82 (F := Ideal) x0 x1 x2 x3 x4 x5 x6 x7 x8) p) (rowOf (val_main_v59 (F := Ideal) x0 x1 x2 x3 x4 x5 x6 x7 x8) p) x9 x10 x11 d := by
  have e1 : ∀ k : Fin 64, lidx_main_v83 (ix2 p d) k = ix2 p k := fun k => funext fun a => Fin.ext (by match a with | ⟨0, _⟩ => rfl | ⟨1, _⟩ => rfl)
  have e2 : ∀ k : Fin 64, ridx_main_v83 (ix2 p d) k = ix2 k d := fun k => funext fun a => Fin.ext (by match a with | ⟨0, _⟩ => rfl | ⟨1, _⟩ => rfl)
  have e3 : idx_main_v84 (idx_main_v85 (ix2 p d)) = ix1 d := funext fun a => Fin.ext (by match a with | ⟨0, _⟩ => rfl)
  have e4 : ∀ k : Fin 64, lidx_main_v87 (ix2 p d) k = ix2 p k := fun k => funext fun a => Fin.ext (by match a with | ⟨0, _⟩ => rfl | ⟨1, _⟩ => rfl)
  have e5 : ∀ k : Fin 64, ridx_main_v87 (ix2 p d) k = ix2 k d := fun k => funext fun a => Fin.ext (by match a with | ⟨0, _⟩ => rfl | ⟨1, _⟩ => rfl)
  rw [val_main_v88_apply, val_main_v86_apply, val_main_v83_apply, val_main_v85_apply, val_main_v84_apply, val_main_v87_apply]
  generalize val_main_v82 (F := Ideal) x0 x1 x2 x3 x4 x5 x6 x7 x8 = M
  generalize val_main_v59 (F := Ideal) x0 x1 x2 x3 x4 x5 x6 x7 x8 = X
  simp only [e1, e2, e3, e4, e5, Ideal.addf_def, hRow, rowOf]

/-- The mean of row `p` of the linear part: the sum of its 64 entries (the sum starts from the word of 0) over 64. -/
theorem mu1_at (p : Fin 100000) :
    val_main_v92 (F := Ideal) x0 x1 x2 x3 x4 x5 x6 x7 x8 x9 x10 x11 (ix2 p (0 : Fin 1)) =
      muRow (fun d => val_main_v88 (F := Ideal) x0 x1 x2 x3 x4 x5 x6 x7 x8 x9 x10 x11 (ix2 p d)) := by
  have e1 : idx_main_v90 (ix2 p (0 : Fin 1)) = ix1 p := funext fun a => Fin.ext (by match a with | ⟨0, _⟩ => rfl)
  have e2 : ∀ k : Fin 64, idx_main_v89 (ix1 p) k = ix2 p k := fun k => funext fun a => Fin.ext (by match a with | ⟨0, _⟩ => rfl | ⟨1, _⟩ => rfl)
  rw [val_main_v92_apply, val_main_v90_apply, val_main_v89_apply, val_main_cst_15_apply, val_main_v91_apply, val_main_cst_16_apply]
  generalize val_main_v88 (F := Ideal) x0 x1 x2 x3 x4 x5 x6 x7 x8 x9 x10 x11 = H
  simp only [e1, e2, Ideal.hostDivf_def, Ideal.ofBits_def, Ideal.ofBits_zero_f32, zero_add, muRow]

/-- One entry's squared deviation from its row's mean. -/
theorem sq1_at (p : Fin 100000) (k : Fin 64) :
    val_main_v95 (F := Ideal) x0 x1 x2 x3 x4 x5 x6 x7 x8 x9 x10 x11 (ix2 p k) =
      (val_main_v88 (F := Ideal) x0 x1 x2 x3 x4 x5 x6 x7 x8 x9 x10 x11 (ix2 p k) - muRow (fun d => val_main_v88 (F := Ideal) x0 x1 x2 x3 x4 x5 x6 x7 x8 x9 x10 x11 (ix2 p d))) *
        (val_main_v88 (F := Ideal) x0 x1 x2 x3 x4 x5 x6 x7 x8 x9 x10 x11 (ix2 p k) - muRow (fun d => val_main_v88 (F := Ideal) x0 x1 x2 x3 x4 x5 x6 x7 x8 x9 x10 x11 (ix2 p d))) := by
  have e3 : idx_main_v93 (ix2 p k) = ix2 p (0 : Fin 1) := funext fun a => Fin.ext (by match a with | ⟨0, _⟩ => rfl | ⟨1, _⟩ => rfl)
  rw [val_main_v95_apply, val_main_v94_apply, val_main_v93_apply, e3, mu1_at]
  generalize val_main_v88 (F := Ideal) x0 x1 x2 x3 x4 x5 x6 x7 x8 x9 x10 x11 = H
  simp only [Ideal.mulf_def, Ideal.subf_def]

/-- The variance of row `p`: every entry's deviation from the row mean, squared, summed over the 64 entries, over 64. -/
theorem var1_at (p : Fin 100000) :
    val_main_v99 (F := Ideal) x0 x1 x2 x3 x4 x5 x6 x7 x8 x9 x10 x11 (ix2 p (0 : Fin 1)) =
      varRow (fun d => val_main_v88 (F := Ideal) x0 x1 x2 x3 x4 x5 x6 x7 x8 x9 x10 x11 (ix2 p d)) := by
  have e1 : idx_main_v97 (ix2 p (0 : Fin 1)) = ix1 p := funext fun a => Fin.ext (by match a with | ⟨0, _⟩ => rfl)
  have e2 : ∀ k : Fin 64, idx_main_v96 (ix1 p) k = ix2 p k := fun k => funext fun a => Fin.ext (by match a with | ⟨0, _⟩ => rfl | ⟨1, _⟩ => rfl)
  rw [val_main_v99_apply, val_main_v97_apply, val_main_v96_apply, val_main_cst_17_apply, val_main_v98_apply, val_main_cst_18_apply, e1]
  simp only [e2, sq1_at]
  generalize val_main_v88 (F := Ideal) x0 x1 x2 x3 x4 x5 x6 x7 x8 x9 x10 x11 = H
  simp only [Ideal.hostDivf_def, Ideal.ofBits_def, Ideal.ofBits_zero_f32, zero_add, varRow]

/-- The whole layer: each entry of the linear part minus its row's mean, times the reciprocal square root of the row's
    variance plus ε, times the gain plus the offset, clipped below at 0, plus the node's own entry. -/
theorem v114_eq :
    val_main_v114 (F := Ideal) x0 x1 x2 x3 x4 x5 x6 x7 x8 x9 x10 x11 x12 x13 =
      layerArr (val_main_v82 (F := Ideal) x0 x1 x2 x3 x4 x5 x6 x7 x8) (val_main_v59 (F := Ideal) x0 x1 x2 x3 x4 x5 x6 x7 x8) x9 x10 x11 x12 x13 := by
  funext i
  obtain ⟨p, q, rfl⟩ : ∃ (p : Fin 100000) (q : Fin 64), i = ix2 p q := ⟨i 0, i 1, eq_ix2 i⟩
  have e1 : idx_main_v100 (ix2 p q) = ix2 p (0 : Fin 1) := funext fun a => Fin.ext (by match a with | ⟨0, _⟩ => rfl | ⟨1, _⟩ => rfl)
  have e2 : idx_main_v105 (ix2 p q) = ix2 p (0 : Fin 1) := funext fun a => Fin.ext (by match a with | ⟨0, _⟩ => rfl | ⟨1, _⟩ => rfl)
  have e3 : idx_main_v107 (idx_main_v108 (ix2 p q)) = ix1 q := funext fun a => Fin.ext (by match a with | ⟨0, _⟩ => rfl)
  have e4 : idx_main_v110 (idx_main_v111 (ix2 p q)) = ix1 q := funext fun a => Fin.ext (by match a with | ⟨0, _⟩ => rfl)
  rw [val_main_v114_apply, val_main_v113_apply, val_main_v112_apply, val_main_v109_apply, val_main_v106_apply, val_main_v101_apply, val_main_v100_apply, val_main_v105_apply,
    val_main_v104_apply, val_main_v103_apply, val_main_v102_apply, val_main_cst_19_apply, val_main_v108_apply, val_main_v107_apply, val_main_v111_apply,
    val_main_v110_apply, val_main_call2_v0_apply, val_main_call2_cst_apply]
  simp only [e1, e2, e3, e4, mu1_at, var1_at, h1_at]
  generalize val_main_v82 (F := Ideal) x0 x1 x2 x3 x4 x5 x6 x7 x8 = M
  generalize val_main_v59 (F := Ideal) x0 x1 x2 x3 x4 x5 x6 x7 x8 = X
  simp only [Ideal.addf_def, Ideal.mulf_def, Ideal.subf_def, Ideal.maximumf_def, Ideal.hostUnary_rsqrt_def, Ideal.ofBits_def,
    layerArr_apply, layerRow, lnRow, rowOf]

/-! ## The last layer -/

/-- The last layer at row `p` and column `q` of its 16: the linear part alone, with both contractions over 64 entries. -/
theorem v143_eq :
    val_main_v143 (F := Ideal) x0 x1 x2 x3 x4 x5 x6 x7 x8 x9 x10 x11 x12 x13 x14 x15 x16 =
      finArr (val_main_v137 (F := Ideal) x0 x1 x2 x3 x4 x5 x6 x7 x8 x9 x10 x11 x12 x13) (val_main_v114 (F := Ideal) x0 x1 x2 x3 x4 x5 x6 x7 x8 x9 x10 x11 x12 x13) x14 x15 x16 := by
  funext i
  obtain ⟨p, q, rfl⟩ : ∃ (p : Fin 100000) (q : Fin 16), i = ix2 p q := ⟨i 0, i 1, eq_ix2 i⟩
  have e1 : ∀ k : Fin 64, lidx_main_v138 (ix2 p q) k = ix2 p k := fun k => funext fun a => Fin.ext (by match a with | ⟨0, _⟩ => rfl | ⟨1, _⟩ => rfl)
  have e2 : ∀ k : Fin 64, ridx_main_v138 (ix2 p q) k = ix2 k q := fun k => funext fun a => Fin.ext (by match a with | ⟨0, _⟩ => rfl | ⟨1, _⟩ => rfl)
  have e3 : idx_main_v139 (idx_main_v140 (ix2 p q)) = ix1 q := funext fun a => Fin.ext (by match a with | ⟨0, _⟩ => rfl)
  have e4 : ∀ k : Fin 64, lidx_main_v142 (ix2 p q) k = ix2 p k := fun k => funext fun a => Fin.ext (by match a with | ⟨0, _⟩ => rfl | ⟨1, _⟩ => rfl)
  have e5 : ∀ k : Fin 64, ridx_main_v142 (ix2 p q) k = ix2 k q := fun k => funext fun a => Fin.ext (by match a with | ⟨0, _⟩ => rfl | ⟨1, _⟩ => rfl)
  rw [val_main_v143_apply, val_main_v141_apply, val_main_v138_apply, val_main_v140_apply, val_main_v139_apply,
    val_main_v142_apply]
  generalize val_main_v137 (F := Ideal) x0 x1 x2 x3 x4 x5 x6 x7 x8 x9 x10 x11 x12 x13 = M
  generalize val_main_v114 (F := Ideal) x0 x1 x2 x3 x4 x5 x6 x7 x8 x9 x10 x11 x12 x13 = X
  simp only [e1, e2, e3, e4, e5, Ideal.addf_def, finArr_apply, hRow, rowOf]

end Cert.RefStages

end
-- ==== Proof.LibColumnBroadcast.lean ====
/-
  A vector laid along a column and repeated over the columns.

  `broadcast_in_dim` applied twice, [n] -> [n, 1] (the vector becomes a column) and [n, 1] -> [n, c] (the column is
  repeated c times): entry (k, q) of the result is entry k of the vector, whatever the column q.  This is how
  `v[:, None] * M` scales the rows of a matrix M by a vector v.
-/
import Idealize.ShloMosaic.Lib.Pipeline.Value
import Idealize.ShloMosaic.Lib.ValueIdx

namespace Cert.Lib

open Idealize.ShloMosaic Idealize.ShloMosaic.ValueIdx

/-- Entry (k, q) of a length-n vector broadcast to a column [n, 1] and then to [n, c] is the vector's entry k.
    Holds for every n and c (for n = 1 the only index is 0 on both sides). -/
theorem broadcastInDim_column_apply {α : Type} {n c : ℕ} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (k : Fin n) (q : Fin c) :
    broadcastInDim ⟨2, ![n, c]⟩ ![0, 1] h2 (broadcastInDim ⟨2, ![n, 1]⟩ ![0] h1 v) (ix2 k q) = v (ix1 k) := by
  refine (broadcastInDim_apply _ h2 _ (ix2 k q) (ix2 k (0 : Fin 1)) fun a => ?_).trans
    (broadcastInDim_apply _ h1 v (ix2 k (0 : Fin 1)) (ix1 k) fun a => ?_)
  · match a with
    | ⟨0, _⟩ =>
      show k.val = if n = 1 then 0 else k.val
      split
      · have := k.isLt; omega
      · rfl
    | ⟨1, _⟩ =>
      show (0 : ℕ) = if (1 : ℕ) = 1 then 0 else q.val
      rw [if_pos rfl]
  · match a with
    | ⟨0, _⟩ =>
      show k.val = if n = 1 then 0 else k.val
      split
      · have := k.isLt; omega
      · rfl

end Cert.Lib
-- ==== Proof.LibReciprocalScale.lean ====
/-
  Scaling by a reciprocal count is dividing by the count, on the extended reals.

  For an array `A` of `n` rows and `c` columns, a vector `s` of `n` counts and a vector of 1s: multiplying every row of `A` by
  `1 / max s 1` (the reciprocal taken first, then laid out as a column and broadcast along the rows) gives the same array
  as dividing every row by `max s 1` laid out the same way.  This is the two spellings of a mean over a variable number
  of terms — a sum times a precomputed reciprocal count against a sum divided by the count — and it holds for EVERY
  extended real entry of `A` and of `s`, the infinities included: a quotient by any `y ≠ 0` is the product with `y⁻¹`, and
  a count clipped below at 1 is never 0.  Any extents `n`, `c`.
-/
import Idealize.ShloMosaic.PureOps.Ideal
import Idealize.ShloMosaic.Lib.ValueIdx
import proofs.«177046_j44306882625629_1_alg».proof.Proof.LibColumnBroadcast

noncomputable section

namespace Cert.LibReciprocalScale

open Idealize.ShloMosaic Idealize.ShloMosaic.ValueIdx

/-- Dividing by a nonzero extended real is multiplying by its reciprocal: `s · (1 / y) = s / y`, at the infinities too. -/
theorem mul_one_div (s y : EReal) (hy : y ≠ 0) : s * Ideal.div 1 y = Ideal.div s y := by
  unfold Ideal.div
  rw [if_neg hy, if_neg hy, one_mul]

/-- A value clipped below at 1 is never 0. -/
theorem max_one_ne_zero (a : EReal) : max a 1 ≠ 0 :=
  ne_of_gt (lt_of_lt_of_le zero_lt_one (le_max_right a 1))

/-- `A` times the column `1 / max s 1` broadcast along the rows is `A` divided by the column `max s 1` broadcast along the
    rows, for a vector `ones` all of whose entries are 1. -/
theorem scale_eq_divide {n c : ℕ} (A : FVec Ideal ⟨2, ![n, c]⟩ .f32) (s ones : FVec Ideal ⟨1, ![n]⟩ .f32)
    (hones : ∀ i, ones i = 1)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) :
    mulf A (broadcastInDim ⟨2, ![n, c]⟩ ![0, 1] h2 (broadcastInDim ⟨2, ![n, 1]⟩ ![0] h1 (Host.divf ones (maximumf s ones))))
      = Host.divf A (broadcastInDim ⟨2, ![n, c]⟩ ![0, 1] h2 (broadcastInDim ⟨2, ![n, 1]⟩ ![0] h1 (maximumf s ones))) := by
  funext i
  obtain ⟨p, q, rfl⟩ : ∃ (p : Fin n) (q : Fin c), i = ix2 p q := ⟨i 0, i 1, eq_ix2 i⟩
  show A (ix2 p q) * broadcastInDim ⟨2, ![n, c]⟩ ![0, 1] h2 (broadcastInDim ⟨2, ![n, 1]⟩ ![0] h1 (Host.divf ones (maximumf s ones))) (ix2 p q)
      = Ideal.div (A (ix2 p q)) (broadcastInDim ⟨2, ![n, c]⟩ ![0, 1] h2 (broadcastInDim ⟨2, ![n, 1]⟩ ![0] h1 (maximumf s ones)) (ix2 p q))
  rw [Cert.Lib.broadcastInDim_column_apply, Cert.Lib.broadcastInDim_column_apply]
  show A (ix2 p q) * Ideal.div (ones (ix1 p)) (max (s (ix1 p)) (ones (ix1 p)))
      = Ideal.div (A (ix2 p q)) (max (s (ix1 p)) (ones (ix1 p)))
  rw [hones]
  exact mul_one_div _ _ (max_one_ne_zero _)

end Cert.LibReciprocalScale

end
-- ==== Proof.RefBridge.lean ====
/-
  The reference program is the same network.  Stage by stage its host operations compute the projection, the two
  normalised layers and the last linear layer that the row functions describe; its neighbour mean is the SAME gather and
  scatter-add of the same edge arrays as the kernel program's, divided by the clipped in-degree where the kernel
  multiplies by its reciprocal — equal on the extended reals because the clipped in-degree is never 0.
-/
import proofs.«177046_j44306882625629_1_alg».proof.Proof.RefReadP
import proofs.«177046_j44306882625629_1_alg».proof.Proof.RefStages
import proofs.«177046_j44306882625629_1_alg».proof.Proof.HostValue
import proofs.«177046_j44306882625629_1_alg».proof.Proof.LibReciprocalScale
import proofs.«177046_j44306882625629_1_alg».proof.Proof.Spec

set_option maxRecDepth 16384

noncomputable section

namespace Cert.RefBridge

open Cert.KernelIdeal Cert.KernelIdeal.Gen Cert.KernelIdeal.HostValue Cert.ReferenceIdeal.Read Cert.Spec
open Idealize.ShloMosaic Idealize.ShloMosaic.ValueIdx

/-- Every entry of the vector of 1s is 1. -/
theorem onesN_apply (i : S100000.Idx) : onesN i = 1 := word_one

/-- Sums divided by the clipped in-degree are the sums times its reciprocal. -/
theorem mean_eq (src dst : I32 S1600000) (X : F32 S100000x64) :
    Host.divf (F := Ideal) (s := S100000x64) (φ := .f32) (aggOf src dst X)
        (broadcastInDim S100000x64 ![0, 1] bcast_S100000x1_S100000x64_0_1 (broadcastInDim S100000x1 ![0] bcast_S100000_S100000x1_0 (cntOf dst)))
      = meanK src dst (cinvOf dst) X :=
  (Cert.LibReciprocalScale.scale_eq_divide (n := 100000) (c := 64) (aggOf src dst X) (degOf dst) onesN onesN_apply
    bcast_S100000_S100000x1_0 bcast_S100000x1_S100000x64_0_1).symm

/-- The reference's three neighbour means are the kernel program's, of the array each is taken of. -/
theorem mean27 (x0 : F32 S100000x32) (x1 : I32 S2x1600000) (x2 : F32 S32x64) (x3 : F32 S64) :
    val_main_v27 (F := Ideal) x0 x1 x2 x3 = meanK (srcOf x1) (dstOf x1) (cinvOf (dstOf x1)) (val_main_v4 (F := Ideal) x0 x2 x3) :=
  (show val_main_v27 (F := Ideal) x0 x1 x2 x3 = Host.divf (F := Ideal) (s := S100000x64) (φ := .f32) (aggOf (srcOf x1) (dstOf x1) (val_main_v4 (F := Ideal) x0 x2 x3))
        (broadcastInDim S100000x64 ![0, 1] bcast_S100000x1_S100000x64_0_1 (broadcastInDim S100000x1 ![0] bcast_S100000_S100000x1_0 (cntOf (dstOf x1)))) from rfl).trans (mean_eq _ _ _)

theorem mean82 (x0 : F32 S100000x32) (x1 : I32 S2x1600000) (x2 : F32 S32x64) (x3 : F32 S64) (x4 : F32 S64x64) (x5 : F32 S64) (x6 : F32 S64x64) (x7 : F32 S64) (x8 : F32 S64) :
    val_main_v82 (F := Ideal) x0 x1 x2 x3 x4 x5 x6 x7 x8 = meanK (srcOf x1) (dstOf x1) (cinvOf (dstOf x1)) (val_main_v59 (F := Ideal) x0 x1 x2 x3 x4 x5 x6 x7 x8) :=
  (show val_main_v82 (F := Ideal) x0 x1 x2 x3 x4 x5 x6 x7 x8 = Host.divf (F := Ideal) (s := S100000x64) (φ := .f32) (aggOf (srcOf x1) (dstOf x1) (val_main_v59 (F := Ideal) x0 x1 x2 x3 x4 x5 x6 x7 x8))
        (broadcastInDim S100000x64 ![0, 1] bcast_S100000x1_S100000x64_0_1 (broadcastInDim S100000x1 ![0] bcast_S100000_S100000x1_0 (cntOf (dstOf x1)))) from rfl).trans (mean_eq _ _ _)

theorem mean137 (x0 : F32 S100000x32) (x1 : I32 S2x1600000) (x2 : F32 S32x64) (x3 : F32 S64) (x4 : F32 S64x64) (x5 : F32 S64) (x6 : F32 S64x64) (x7 : F32 S64) (x8 : F32 S64) (x9 : F32 S64x64) (x10 : F32 S64) (x11 : F32 S64x64) (x12 : F32 S64) (x13 : F32 S64) :
    val_main_v137 (F := Ideal) x0 x1 x2 x3 x4 x5 x6 x7 x8 x9 x10 x11 x12 x13 = meanK (srcOf x1) (dstOf x1) (cinvOf (dstOf x1)) (val_main_v114 (F := Ideal) x0 x1 x2 x3 x4 x5 x6 x7 x8 x9 x10 x11 x12 x13) :=
  (show val_main_v137 (F := Ideal) x0 x1 x2 x3 x4 x5 x6 x7 x8 x9 x10 x11 x12 x13 = Host.divf (F := Ideal) (s := S100000x64) (φ := .f32) (aggOf (srcOf x1) (dstOf x1) (val_main_v114 (F := Ideal) x0 x1 x2 x3 x4 x5 x6 x7 x8 x9 x10 x11 x12 x13))
        (broadcastInDim S100000x64 ![0, 1] bcast_S100000x1_S100000x64_0_1 (broadcastInDim S100000x1 ![0] bcast_S100000_S100000x1_0 (cntOf (dstOf x1)))) from rfl).trans (mean_eq _ _ _)

/-- The reference's result, as a function of its seventeen arguments, is the kernel program's. -/
theorem ref_value (x0 : F32 S100000x32) (x1 : I32 S2x1600000) (x2 : F32 S32x64) (x3 : F32 S64) (x4 : F32 S64x64) (x5 : F32 S64) (x6 : F32 S64x64) (x7 : F32 S64) (x8 : F32 S64) (x9 : F32 S64x64) (x10 : F32 S64) (x11 : F32 S64x64) (x12 : F32 S64) (x13 : F32 S64) (x14 : F32 S64x16) (x15 : F32 S16) (x16 : F32 S64x16) :
    val_main_v143 (F := Ideal) x0 x1 x2 x3 x4 x5 x6 x7 x8 x9 x10 x11 x12 x13 x14 x15 x16 = netK x0 x1 x2 x3 x4 x5 x6 x7 x8 x9 x10 x11 x12 x13 x14 x15 x16 := by
  rw [Cert.RefStages.v143_eq, mean137, Cert.RefStages.v114_eq, mean82, Cert.RefStages.v59_eq, mean27, Cert.RefStages.v4_eq]
  rfl

end Cert.RefBridge

end
-- ==== Proof.lean ====
/-
  The certificate: a three-layer graph network (an input projection, two layers with layer normalisation and a residual,
  a last linear layer, each layer mixing every node's row with the mean of its neighbours' rows) computed by four
  row-blocked kernels among host gathers and scatter-adds, against the plain array program.

  At the ideal instance both programs compute the same function of the seventeen arguments.  Each kernel handles rows
  `t·10000 … t·10000 + 9999` at grid point `t`, and its arithmetic at a row reads only that row, so its output array is one
  row-wise function of its input arrays (BlockValue); the host stretches between the kernels are read one buffer at a time
  (HostValue); the reference is read stage by stage (RefStages) and uses the same gather and scatter-add.  The one
  difference is the neighbour mean: the kernel program multiplies the sums by `1 / max count 1`, the reference divides by
  `max count 1`; on the extended reals these agree since `max count 1 ≠ 0` (LibReciprocalScale) — no input has to be finite.  The
  word-level kernel's and the idealized kernel's frames are the generated frame certificates, the reference's frame its
  generated run with the result dropped, and the idealization rewrote nothing.
-/
import proofs.«177046_j44306882625629_1_alg».proof.Defs
import proofs.«177046_j44306882625629_1_alg».proof.Proof.Gen.Kernel
import proofs.«177046_j44306882625629_1_alg».proof.Proof.KernelFrameP
import proofs.«177046_j44306882625629_1_alg».proof.Proof.Gen.KernelIdeal
import proofs.«177046_j44306882625629_1_alg».proof.Proof.KernelIdealFrameP
import proofs.«177046_j44306882625629_1_alg».proof.Proof.Gen.ReferenceIdeal
import proofs.«177046_j44306882625629_1_alg».proof.Proof.Gen.Pre_finite_inputs
import proofs.«177046_j44306882625629_1_alg».proof.Proof.RefReadP
import proofs.«177046_j44306882625629_1_alg».proof.Proof.KernelRun
import proofs.«177046_j44306882625629_1_alg».proof.Proof.HostValue
import proofs.«177046_j44306882625629_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

namespace Claims

/-- The word-level kernel program terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result array: the network of the launch arguments. -/
theorem algebraic : Cert.algebraic_KernelIdeal_ReferenceIdeal := by
  intro m ρ m' ρ' _ hagree
  refine ⟨fun c => Cert.KernelIdeal.HostValue.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.HostValue.result m ρ c), (h c).2⟩)
      (Cert.KernelIdeal.RunValue.run_result m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12, a13, a14, a15, a16⟩ := hagree c
    rw [(h c).1, Cert.ReferenceIdeal.Read.val_main_v143_eq, Cert.RefBridge.ref_value,
      a0, a1, a2, a3, a4, a5, a6, a7, a8, a9, a10, a11, a12, a13, a14, a15, a16]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
